-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S12x5 : Shape := ⟨2, ![12, 5]⟩
abbrev S5x8 : Shape := ⟨2, ![5, 8]⟩
abbrev S5x16 : Shape := ⟨2, ![5, 16]⟩
abbrev S8x3 : Shape := ⟨2, ![8, 3]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel
  bcast_S_S12x5 : S_.BroadcastsInDim S12x5 (![] : Fin 0 → Fin S12x5.rank)
  reducesTo_S12x5_S_d0_1 : S12x5.ReducesTo [0, 1] S_
  bcast_S_S5x8 : S_.BroadcastsInDim S5x8 (![] : Fin 0 → Fin S5x8.rank)
  reducesTo_S5x8_S_d0_1 : S5x8.ReducesTo [0, 1] S_
  bcast_S_S5x16 : S_.BroadcastsInDim S5x16 (![] : Fin 0 → Fin S5x16.rank)
  reducesTo_S5x16_S_d0_1 : S5x16.ReducesTo [0, 1] S_
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S8x3 .f32) (main_arg8 : FVec F S8 .f32) (main_arg9 : FVec F S1x8 .f32) (main_arg10 : FVec F S1 .f32) (main_v33 : IVec S_ 1) : IVec S_ 1 :=
  let main_v34 : FVec F S8x3 .f32 := Host.absf main_arg7
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1x8 .f32 := Host.absf main_arg9
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S5x16 .f32) (main_arg5 : FVec F S5x16 .f32) (main_arg6 : FVec F S5x16 .f32) (main_arg7 : FVec F S8x3 .f32) (main_arg8 : FVec F S8 .f32) (main_arg9 : FVec F S1x8 .f32) (main_arg10 : FVec F S1 .f32) (main_v13 : IVec S_ 1) (main_v16 : IVec S5x8 1) : IVec S_ 1 :=
  let main_c_5 : IVec S_ 1 := constantI S_ 1 1#1
  let main_v17 : IVec S_ 1 := (fun x v => Host.reduce IntOp.andi x v reducesTo_S5x8_S_d0_1 h_S_) main_v16 main_c_5
  let main_v18 : IVec S_ 1 := andi main_v13 main_v17
  let main_v19 : FVec F S5x16 .f32 := Host.absf main_arg4
  let main_cst_6 : FVec F S_ .f32 := constant S_ .f32 0x7F800000#32
  let main_v20 : FVec F S5x16 .f32 := broadcastInDim S5x16 ![] bcast_S_S5x16 main_cst_6
  let main_v21 : IVec S5x16 1 := cmpf .olt main_v19 main_v20
  let main_c_7 : IVec S_ 1 := constantI S_ 1 1#1
  let main_v22 : IVec S_ 1 := (fun x v => Host.reduce IntOp.andi x v reducesTo_S5x16_S_d0_1 h_S_) main_v21 main_c_7
  let main_v23 : IVec S_ 1 := andi main_v18 main_v22
  let main_v24 : FVec F S5x16 .f32 := Host.absf main_arg5
  let main_cst_8 : FVec F S_ .f32 := constant S_ .f32 0x7F800000#32
  let main_v25 : FVec F S5x16 .f32 := broadcastInDim S5x16 ![] bcast_S_S5x16 main_cst_8
  let main_v26 : IVec S5x16 1 := cmpf .olt main_v24 main_v25
  let main_c_9 : IVec S_ 1 := constantI S_ 1 1#1
  let main_v27 : IVec S_ 1 := (fun x v => Host.reduce IntOp.andi x v reducesTo_S5x16_S_d0_1 h_S_) main_v26 main_c_9
  let main_v28 : IVec S_ 1 := andi main_v23 main_v27
  let main_v29 : FVec F S5x16 .f32 := Host.absf main_arg6
  let main_cst_10 : FVec F S_ .f32 := constant S_ .f32 0x7F800000#32
  let main_v30 : FVec F S5x16 .f32 := broadcastInDim S5x16 ![] bcast_S_S5x16 main_cst_10
  let main_v31 : IVec S5x16 1 := cmpf .olt main_v29 main_v30
  let main_c_11 : IVec S_ 1 := constantI S_ 1 1#1
  let main_v32 : IVec S_ 1 := (fun x v => Host.reduce IntOp.andi x v reducesTo_S5x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4194304x3 .f32) (main_arg1 : FVec F S4194304x3 .f32) (main_arg2 : FVec F S12x5 .f32) (main_arg3 : FVec F S5x8 .f32) (main_arg4 : FVec F S5x16 .f32) (main_arg5 : FVec F S5x16 .f32) (main_arg6 : FVec F S5x16 .f32) (main_arg7 : FVec F S8x3 .f32) (main_arg8 : FVec F S8 .f32) (main_arg9 : FVec F S1x8 .f32) (main_arg10 : FVec F S1 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  let main_v4 : FVec F S4194304x3 .f32 := Host.absf main_arg1
  let main_cst_0 : FVec F S_ .f32 := constant S_ .f32 0x7F800000#32
  let main_v5 : FVec F S4194304x3 .f32 := broadcastInDim S4194304x3 ![] bcast_S_S4194304x3 main_cst_0
  let main_v6 : IVec S4194304x3 1 := cmpf .olt main_v4 main_v5
  let main_c_1 : IVec S_ 1 := constantI S_ 1 1#1
  let main_v7 : IVec S_ 1 := (fun x v => Host.reduce IntOp.andi x v reducesTo_S4194304x3_S_d0_1 h_S_) main_v6 main_c_1
  let main_v8 : IVec S_ 1 := andi main_v3 main_v7
  let main_v9 : FVec F S12x5 .f32 := Host.absf main_arg2
  let main_cst_2 : FVec F S_ .f32 := constant S_ .f32 0x7F800000#32
  let main_v10 : FVec F S12x5 .f32 := broadcastInDim S12x5 ![] bcast_S_S12x5 main_cst_2
  let main_v11 : IVec S12x5 1 := cmpf .olt main_v9 main_v10
  let main_c_3 : IVec S_ 1 := constantI S_ 1 1#1
  let main_v12 : IVec S_ 1 := (fun x v => Host.reduce IntOp.andi x v reducesTo_S12x5_S_d0_1 h_S_) main_v11 main_c_3
  let main_v13 : IVec S_ 1 := andi main_v8 main_v12
  let main_v14 : FVec F S5x8 .f32 := Host.absf main_arg3
  let main_cst_4 : FVec F S_ .f32 := constant S_ .f32 0x7F800000#32
  let main_v15 : FVec F S5x8 .f32 := broadcastInDim S5x8 ![] bcast_S_S5x8 main_cst_4
  let main_v16 : IVec S5x8 1 := cmpf .olt main_v14 main_v15
  fn_part1 (F := F) main_arg4 main_arg5 main_arg6 main_arg7 main_arg8 main_arg9 main_arg10 main_v13 main_v16
-- ==== Kernel.lean ====
abbrev S4194304x3 : Shape := ⟨2, ![4194304, 3]⟩
abbrev S12x5 : Shape := ⟨2, ![12, 5]⟩
abbrev S5x8 : Shape := ⟨2, ![5, 8]⟩
abbrev S5x16 : Shape := ⟨2, ![5, 16]⟩
abbrev S8x3 : Shape := ⟨2, ![8, 3]⟩
abbrev S8 : Shape := ⟨1, ![8]⟩
abbrev S1x8 : Shape := ⟨2, ![1, 8]⟩
abbrev S1 : Shape := ⟨1, ![1]⟩
abbrev S3x4194304 : Shape := ⟨2, ![3, 4194304]⟩
abbrev S8x1 : Shape := ⟨2, ![8, 1]⟩
abbrev S1x1 : Shape := ⟨2, ![1, 1]⟩
abbrev S12x4194304 : Shape := ⟨2, ![12, 4194304]⟩
abbrev S3x16384 : Shape := ⟨2, ![3, 16384]⟩
abbrev S12x16384 : Shape := ⟨2, ![12, 16384]⟩
abbrev S8x16384 : Shape := ⟨2, ![8, 16384]⟩
abbrev S1x16384 : Shape := ⟨2, ![1, 16384]⟩
abbrev S5x16384 : Shape := ⟨2, ![5, 16384]⟩
abbrev S16x1 : Shape := ⟨2, ![16, 1]⟩
abbrev S16x16384 : Shape := ⟨2, ![16, 16384]⟩
abbrev S4194304x12 : Shape := ⟨2, ![4194304, 12]⟩
abbrev S4194304x3x4 : Shape := ⟨3, ![4194304, 3, 4]⟩

abbrev nBuf : Space → Nat
  | .hbm => 18
  | .vmem => 15
  | .smem => 0
  | _ => 0

abbrev bufTy : (tb : Table) → Fin (tcTables nBuf tb) → BufTy
  | .hbm, ⟨0, _⟩ => ⟨S4194304x3, .f32⟩
  | .hbm, ⟨1, _⟩ => ⟨S4194304x3, .f32⟩
  | .hbm, ⟨2, _⟩ => ⟨S12x5, .f32⟩
  | .hbm, ⟨3, _⟩ => ⟨S5x8, .f32⟩
  | .hbm, ⟨4, _⟩ => ⟨S5x16, .f32⟩
  | .hbm, ⟨5, _⟩ => ⟨S5x16, .f32⟩
  | .hbm, ⟨6, _⟩ => ⟨S5x16, .f32⟩
  | .hbm, ⟨7, _⟩ => ⟨S8x3, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S3x4194304, .f32⟩
  | .hbm, ⟨12, _⟩ => ⟨S3x4194304, .f32⟩
  | .hbm, ⟨13, _⟩ => ⟨S8x1, .f32⟩
  | .hbm, ⟨14, _⟩ => ⟨S1x1, .f32⟩
  | .hbm, ⟨15, _⟩ => ⟨S12x4194304, .f32⟩
  | .hbm, ⟨16, _⟩ => ⟨S4194304x12, .f32⟩
  | .hbm, ⟨17, _⟩ => ⟨S4194304x3x4, .f32⟩
  | .local _ .vmem, ⟨0, _⟩ => ⟨S3x16384, .f32⟩
  | .local _ .vmem, ⟨1, _⟩ => ⟨S3x16384, .f32⟩
  | .local _ .vmem, ⟨2, _⟩ => ⟨S3x16384, .f32⟩
  | .local _ .vmem, ⟨3, _⟩ => ⟨S3x16384, .f32⟩
  | .local _ .vmem, ⟨4, _⟩ => ⟨S12x5, .f32⟩
  | .local _ .vmem, ⟨5, _⟩ => ⟨S5x8, .f32⟩
  | .local _ .vmem, ⟨6, _⟩ => ⟨S5x16, .f32⟩
  | .local _ .vmem, ⟨7, _⟩ => ⟨S5x16, .f32⟩
  | .local _ .vmem, ⟨8, _⟩ => ⟨S5x16, .f32⟩
  | .local _ .vmem, ⟨9, _⟩ => ⟨S8x3, .f32⟩
  | .local _ .vmem, ⟨10, _⟩ => ⟨S8x1, .f32⟩
  | .local _ .vmem, ⟨11, _⟩ => ⟨S1x8, .f32⟩
  | .local _ .vmem, ⟨12, _⟩ => ⟨S1x1, .f32⟩
  | .local _ .vmem, ⟨13, _⟩ => ⟨S12x16384, .f32⟩
  | .local _ .vmem, ⟨14, _⟩ => ⟨S12x16384, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S12x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4194304x3_S3x4194304_1_0 : S4194304x3.Transposes [1, 0] S3x4194304
  shapeCasts_S8_S8x1 : S8.ShapeCasts S8x1
  shapeCasts_S1_S1x1 : S1.ShapeCasts S1x1
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  bitsLt_bf16_f32 : FTy.bits .bf16 < FTy.bits .f32
  inb_S8x3_S8x3_0_0 : ∀ a, (![0, 0] : Fin 2 → Nat) a + S8x3.size a ≤ S8x3.size a
  h_S8x3 : 0 < S8x3.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x16384 : S8x1.Broadcasts S8x16384
  inb_S1x8_S1x8_0_0 : ∀ a, (![0, 0] : Fin 2 → Nat) a + S1x8.size a ≤ S1x8.size a
  h_S1x8 : 0 < S1x8.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  slices_S3x16384_o0_0_S1x16384 : S3x16384.Slices ![0, 0] S1x16384
  iota_S8x1_d0_w32 : S8x1.Iotas .tc 32 [0]
  broadcasts_S1x16384_S8x16384 : S1x16384.Broadcasts S8x16384
  inb_S5x8_S5x8_0_0 : ∀ a, (![0, 0] : Fin 2 → Nat) a + S5x8.size a ≤ S5x8.size a
  h_S5x8 : 0 < S5x8.numel
  slices_S3x16384_o1_0_S1x16384 : S3x16384.Slices ![1, 0] S1x16384
  iota_S16x1_d0_w32 : S16x1.Iotas .tc 32 [0]
  broadcasts_S16x1_S16x16384 : S16x1.Broadcasts S16x16384
  broadcasts_S1x16384_S16x16384 : S1x16384.Broadcasts S16x16384
  inb_S5x16_S5x16_0_0 : ∀ a, (![0, 0] : Fin 2 → Nat) a + S5x16.size a ≤ S5x16.size a
  h_S5x16 : 0 < S5x16.numel
  slices_S3x16384_o2_0_S1x16384 : S3x16384.Slices ![2, 0] S1x16384
  inb_S12x5_S12x5_0_0 : ∀ a, (![0, 0] : Fin 2 → Nat) a + S12x5.size a ≤ S12x5.size a
  h_S12x5 : 0 < S12x5.numel
  inb_S12x16384_S12x16384_0_0 : ∀ a, (![0, 0] : Fin 2 → Nat) a + S12x16384.size a ≤ S12x16384.size a
  h_S12x16384 : 0 < S12x16384.numel
  transposes_S12x4194304_S4194304x12_1_0 : S12x4194304.Transposes [1, 0] S4194304x12
  shapeCasts_S4194304x12_S4194304x3x4 : S4194304x12.ShapeCasts S4194304x3x4
  dot_S8x3_S3x16384_S8x16384_1_0_0_1_n_n_wf : DotDims.WF S8x3 S3x16384 S8x16384 [1] [0] [0] [1] [] []
  dot_S1x8_S8x16384_S1x16384_1_0_0_1_n_n_wf : DotDims.WF S1x8 S8x16384 S1x16384 [1] [0] [0] [1] [] []
  dot_S5x8_S8x16384_S5x16384_1_0_0_1_n_n_wf : DotDims.WF S5x8 S8x16384 S5x16384 [1] [0] [0] [1] [] []
  dot_S5x16_S16x16384_S5x16384_1_0_0_1_n_n_wf : DotDims.WF S5x16 S16x16384 S5x16384 [1] [0] [0] [1] [] []
  dot_S12x5_S5x16384_S12x16384_1_0_0_1_n_n_wf : DotDims.WF S12x5 S5x16384 S12x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x4194304.size a
  hwx0_0 : ∀ i : grid0.Coords, EltTy.bits .f32 = 32 ∨ (Rect.block (s := S3x4194304) S3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x4194304.size a
  hwx0_1 : ∀ i : grid0.Coords, EltTy.bits .f32 = 32 ∨ (Rect.block (s := S3x4194304) S3x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x5.size a ≤ S12x5.size a
  hwx0_2 : ∀ i : grid0.Coords, EltTy.bits .f32 = 32 ∨ (Rect.block (s := S12x5) S12x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x8.size a ≤ S5x8.size a
  hwx0_3 : ∀ i : grid0.Coords, EltTy.bits .f32 = 32 ∨ (Rect.block (s := S5x8) S5x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x16.size a ≤ S5x16.size a
  hwx0_4 : ∀ i : grid0.Coords, EltTy.bits .f32 = 32 ∨ (Rect.block (s := S5x16) S5x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x16.size a ≤ S5x16.size a
  hwx0_5 : ∀ i : grid0.Coords, EltTy.bits .f32 = 32 ∨ (Rect.block (s := S5x16) S5x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x16.size a ≤ S5x16.size a
  hwx0_6 : ∀ i : grid0.Coords, EltTy.bits .f32 = 32 ∨ (Rect.block (s := S5x16) S5x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x3.size a ≤ S8x3.size a
  hwx0_7 : ∀ i : grid0.Coords, EltTy.bits .f32 = 32 ∨ (Rect.block (s := S8x3) S8x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S8x1.size a
  hwx0_8 : ∀ i : grid0.Coords, EltTy.bits .f32 = 32 ∨ (Rect.block (s := S8x1) S8x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S12x16384.size a ≤ S12x4194304.size a
  hwx0_11 : ∀ i : grid0.Coords, EltTy.bits .f32 = 32 ∨ (Rect.block (s := S12x4194304) S12x16384.size (cc0_transform_11 i) (hinb0_11 i)).WholeWords (EltTy.packing .f32)

variable [Facts₀]

def dot_S8x3_S3x16384_S8x16384_1_0_0_1_n_n : DotDims S8x3 S3x16384 S8x16384 where
  lhsContracting := [1]
  rhsContracting := [0]
  lhsNonContracting := [0]
  rhsNonContracting := [1]
  lhsBatch := []
  rhsBatch := []
  wf := dot_S8x3_S3x16384_S8x16384_1_0_0_1_n_n_wf
def dot_S1x8_S8x16384_S1x16384_1_0_0_1_n_n : DotDims S1x8 S8x16384 S1x16384 where
  lhsContracting := [1]
  rhsContracting := [0]
  lhsNonContracting := [0]
  rhsNonContracting := [1]
  lhsBatch := []
  rhsBatch := []
  wf := dot_S1x8_S8x16384_S1x16384_1_0_0_1_n_n_wf
def dot_S5x8_S8x16384_S5x16384_1_0_0_1_n_n : DotDims S5x8 S8x16384 S5x16384 where
  lhsContracting := [1]
  rhsContracting := [0]
  lhsNonContracting := [0]
  rhsNonContracting := [1]
  lhsBatch := []
  rhsBatch := []
  wf := dot_S5x8_S8x16384_S5x16384_1_0_0_1_n_n_wf
def dot_S5x16_S16x16384_S5x16384_1_0_0_1_n_n : DotDims S5x16 S16x16384 S5x16384 where
  lhsContracting := [1]
  rhsContracting := [0]
  lhsNonContracting := [0]
  rhsNonContracting := [1]
  lhsBatch := []
  rhsBatch := []
  wf := dot_S5x16_S16x16384_S5x16384_1_0_0_1_n_n_wf
def dot_S12x5_S5x16384_S12x16384_1_0_0_1_n_n : DotDims S12x5 S5x16384 S12x16384 where
  lhsContracting := [1]
  rhsContracting := [0]
  lhsNonContracting := [0]
  rhsNonContracting := [1]
  lhsBatch := []
  rhsBatch := []
  wf := dot_S12x5_S5x16384_S12x16384_1_0_0_1_n_n_wf

abbrev win0_0 : Pipeline.Window sig grid0 :=
  Pipeline.Window.ofSpec (Memref.whole main_v0) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S12x16384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S12x5 : Shape := ⟨2, ![12, 5]⟩
abbrev S5x8 : Shape := ⟨2, ![5, 8]⟩
abbrev S5x16 : Shape := ⟨2, ![5, 16]⟩
abbrev S8x3 : Shape := ⟨2, ![8, 3]⟩
abbrev S8 : Shape := ⟨1, ![8]⟩
abbrev S1x8 : Shape := ⟨2, ![1, 8]⟩
abbrev S1 : Shape := ⟨1, ![1]⟩
abbrev S_ : Shape := ⟨0, ![]⟩
abbrev S3x8 : Shape := ⟨2, ![3, 8]⟩
abbrev S4194304x8 : Shape := ⟨2, ![4194304, 8]⟩
abbrev S8x1 : Shape := ⟨2, ![8, 1]⟩
abbrev S4194304x1 : Shape := ⟨2, ![4194304, 1]⟩
abbrev S1x1 : Shape := ⟨2, ![1, 1]⟩
abbrev S4194304 : Shape := ⟨1, ![4194304]⟩
abbrev S5x4194304 : Shape := ⟨2, ![5, 4194304]⟩
abbrev S1x4194304 : Shape := ⟨2, ![1, 4194304]⟩
abbrev S4194304x5 : Shape := ⟨2, ![4194304, 5]⟩
abbrev S5x12 : Shape := ⟨2, ![5, 12]⟩
abbrev S4194304x12 : Shape := ⟨2, ![4194304, 12]⟩
abbrev S4194304x3x4 : Shape := ⟨3, ![4194304, 3, 4]⟩

abbrev nBuf : Space → Nat
  | .hbm => 285
  | .vmem => 0
  | .smem => 0
  | _ => 0

abbrev hbmTy0_0 (i : Nat) : BufTy := match i % 128 with
  | 0 => ⟨S4194304x3, .f32⟩
  | 1 => ⟨S4194304x3, .f32⟩
  | 2 => ⟨S12x5, .f32⟩
  | 3 => ⟨S5x8, .f32⟩
  | 4 => ⟨S5x16, .f32⟩
  | 5 => ⟨S5x16, .f32⟩
  | 6 => ⟨S5x16, .f32⟩
  | 7 => ⟨S8x3, .f32⟩
  | 8 => ⟨S8, .f32⟩
  | 9 => ⟨S1x8, .f32⟩
  | 10 => ⟨S1, .f32⟩
  | 11 => ⟨S_, .f32⟩
  | 12 => ⟨S4194304x3, .f32⟩
  | 13 => ⟨S4194304x3, .f32⟩
  | 14 => ⟨S3x8, .f32⟩
  | 15 => ⟨S4194304x8, .f32⟩
  | 16 => ⟨S1x8, .f32⟩
  | 17 => ⟨S4194304x8, .f32⟩
  | 18 => ⟨S4194304x8, .f32⟩
  | 19 => ⟨S_, .f32⟩
  | 20 => ⟨S4194304x8, .f32⟩
  | 21 => ⟨S4194304x8, .f32⟩
  | 22 => ⟨S8x1, .f32⟩
  | 23 => ⟨S4194304x1, .f32⟩
  | 24 => ⟨S1x1, .f32⟩
  | 25 => ⟨S4194304x1, .f32⟩
  | 26 => ⟨S4194304x1, .f32⟩
  | 27 => ⟨S_, .f32⟩
  | 28 => ⟨S4194304x1, .f32⟩
  | 29 => ⟨S4194304x1, .f32⟩
  | 30 => ⟨S4194304x1, .f32⟩
  | 31 => ⟨S4194304, .f32⟩
  | 32 => ⟨S4194304x1, .f32⟩
  | 33 => ⟨S4194304, .f32⟩
  | 34 => ⟨S_, .f32⟩
  | 35 => ⟨S4194304, .f32⟩
  | 36 => ⟨S4194304, .f32⟩
  | 37 => ⟨S_, .f32⟩
  | 38 => ⟨S4194304, .f32⟩
  | 39 => ⟨S4194304, .f32⟩
  | 40 => ⟨S_, .f32⟩
  | 41 => ⟨S4194304, .f32⟩
  | 42 => ⟨S4194304, .f32⟩
  | 43 => ⟨S_, .f32⟩
  | 44 => ⟨S_, .f32⟩
  | 45 => ⟨S_, .f32⟩
  | 46 => ⟨S4194304, .f32⟩
  | 47 => ⟨S4194304, .f32⟩
  | 48 => ⟨S_, .f32⟩
  | 49 => ⟨S4194304, .f32⟩
  | 50 => ⟨S4194304, .f32⟩
  | 51 => ⟨S4194304, .f32⟩
  | 52 => ⟨S4194304, .i32⟩
  | 53 => ⟨S_, .i32⟩
  | 54 => ⟨S_, .i32⟩
  | 55 => ⟨S_, .i32⟩
  | 56 => ⟨S4194304, .i32⟩
  | 57 => ⟨S4194304, .i32⟩
  | 58 => ⟨S_, .i32⟩
  | 59 => ⟨S4194304, .i32⟩
  | 60 => ⟨S4194304, .i32⟩
  | 61 => ⟨S4194304, .f32⟩
  | 62 => ⟨S4194304, .f32⟩
  | 63 => ⟨S_, .i32⟩
  | 64 => ⟨S4194304, .i32⟩
  | 65 => ⟨S4194304, .i1⟩
  | 66 => ⟨S_, .i32⟩
  | 67 => ⟨S4194304, .i32⟩
  | 68 => ⟨S4194304, .i32⟩
  | 69 => ⟨S4194304, .i32⟩
  | 70 => ⟨S4194304x1, .i32⟩
  | 71 => ⟨S5x4194304, .f32⟩
  | 72 => ⟨S_, .f32⟩
  | 73 => ⟨S4194304, .f32⟩
  | 74 => ⟨S4194304, .f32⟩
  | 75 => ⟨S1x4194304, .f32⟩
  | 76 => ⟨S5x4194304, .f32⟩
  | 77 => ⟨S5x4194304, .f32⟩
  | 78 => ⟨S_, .i32⟩
  | 79 => ⟨S4194304, .i32⟩
  | 80 => ⟨S4194304, .i32⟩
  | 81 => ⟨S_, .i32⟩
  | 82 => ⟨S4194304, .i32⟩
  | 83 => ⟨S4194304, .i1⟩
  | 84 => ⟨S_, .i32⟩
  | 85 => ⟨S4194304, .i32⟩
  | 86 => ⟨S4194304, .i32⟩
  | 87 => ⟨S4194304, .i32⟩
  | 88 => ⟨S4194304x1, .i32⟩
  | 89 => ⟨S5x4194304, .f32⟩
  | 90 => ⟨S1x4194304, .f32⟩
  | 91 => ⟨S5x4194304, .f32⟩
  | 92 => ⟨S5x4194304, .f32⟩
  | 93 => ⟨S5x4194304, .f32⟩
  | 94 => ⟨S4194304x1, .f32⟩
  | 95 => ⟨S4194304, .f32⟩
  | 96 => ⟨S_, .f32⟩
  | 97 => ⟨S4194304, .f32⟩
  | 98 => ⟨S4194304, .f32⟩
  | 99 => ⟨S_, .f32⟩
  | 100 => ⟨S4194304, .f32⟩
  | 101 => ⟨S4194304, .f32⟩
  | 102 => ⟨S_, .f32⟩
  | 103 => ⟨S4194304, .f32⟩
  | 104 => ⟨S4194304, .f32⟩
  | 105 => ⟨S_, .f32⟩
  | 106 => ⟨S_, .f32⟩
  | 107 => ⟨S_, .f32⟩
  | 108 => ⟨S4194304, .f32⟩
  | 109 => ⟨S4194304, .f32⟩
  | 110 => ⟨S_, .f32⟩
  | 111 => ⟨S4194304, .f32⟩
  | 112 => ⟨S4194304, .f32⟩
  | 113 => ⟨S4194304, .f32⟩
  | 114 => ⟨S4194304, .i32⟩
  | 115 => ⟨S_, .i32⟩
  | 116 => ⟨S_, .i32⟩
  | 117 => ⟨S_, .i32⟩
  | 118 => ⟨S4194304, .i32⟩
  | 119 => ⟨S4194304, .i32⟩
  | 120 => ⟨S_, .i32⟩
  | 121 => ⟨S4194304, .i32⟩
  | 122 => ⟨S4194304, .i32⟩
  | 123 => ⟨S4194304, .f32⟩
  | 124 => ⟨S4194304, .f32⟩
  | 125 => ⟨S_, .i32⟩
  | 126 => ⟨S4194304, .i32⟩
  | 127 => ⟨S4194304, .i1⟩
  | _ => ⟨S4194304x3, .f32⟩

abbrev hbmTy0_1 (i : Nat) : BufTy := match i % 128 with
  | 0 => ⟨S_, .i32⟩
  | 1 => ⟨S4194304, .i32⟩
  | 2 => ⟨S4194304, .i32⟩
  | 3 => ⟨S4194304, .i32⟩
  | 4 => ⟨S4194304x1, .i32⟩
  | 5 => ⟨S5x4194304, .f32⟩
  | 6 => ⟨S_, .f32⟩
  | 7 => ⟨S4194304, .f32⟩
  | 8 => ⟨S4194304, .f32⟩
  | 9 => ⟨S1x4194304, .f32⟩
  | 10 => ⟨S5x4194304, .f32⟩
  | 11 => ⟨S5x4194304, .f32⟩
  | 12 => ⟨S_, .i32⟩
  | 13 => ⟨S4194304, .i32⟩
  | 14 => ⟨S4194304, .i32⟩
  | 15 => ⟨S_, .i32⟩
  | 16 => ⟨S4194304, .i32⟩
  | 17 => ⟨S4194304, .i1⟩
  | 18 => ⟨S_, .i32⟩
  | 19 => ⟨S4194304, .i32⟩
  | 20 => ⟨S4194304, .i32⟩
  | 21 => ⟨S4194304, .i32⟩
  | 22 => ⟨S4194304x1, .i32⟩
  | 23 => ⟨S5x4194304, .f32⟩
  | 24 => ⟨S1x4194304, .f32⟩
  | 25 => ⟨S5x4194304, .f32⟩
  | 26 => ⟨S5x4194304, .f32⟩
  | 27 => ⟨S5x4194304, .f32⟩
  | 28 => ⟨S5x4194304, .f32⟩
  | 29 => ⟨S4194304x1, .f32⟩
  | 30 => ⟨S4194304, .f32⟩
  | 31 => ⟨S_, .f32⟩
  | 32 => ⟨S4194304, .f32⟩
  | 33 => ⟨S4194304, .f32⟩
  | 34 => ⟨S_, .f32⟩
  | 35 => ⟨S4194304, .f32⟩
  | 36 => ⟨S4194304, .f32⟩
  | 37 => ⟨S_, .f32⟩
  | 38 => ⟨S4194304, .f32⟩
  | 39 => ⟨S4194304, .f32⟩
  | 40 => ⟨S_, .f32⟩
  | 41 => ⟨S_, .f32⟩
  | 42 => ⟨S_, .f32⟩
  | 43 => ⟨S4194304, .f32⟩
  | 44 => ⟨S4194304, .f32⟩
  | 45 => ⟨S_, .f32⟩
  | 46 => ⟨S4194304, .f32⟩
  | 47 => ⟨S4194304, .f32⟩
  | 48 => ⟨S4194304, .f32⟩
  | 49 => ⟨S4194304, .i32⟩
  | 50 => ⟨S_, .i32⟩
  | 51 => ⟨S_, .i32⟩
  | 52 => ⟨S_, .i32⟩
  | 53 => ⟨S4194304, .i32⟩
  | 54 => ⟨S4194304, .i32⟩
  | 55 => ⟨S_, .i32⟩
  | 56 => ⟨S4194304, .i32⟩
  | 57 => ⟨S4194304, .i32⟩
  | 58 => ⟨S4194304, .f32⟩
  | 59 => ⟨S4194304, .f32⟩
  | 60 => ⟨S_, .i32⟩
  | 61 => ⟨S4194304, .i32⟩
  | 62 => ⟨S4194304, .i1⟩
  | 63 => ⟨S_, .i32⟩
  | 64 => ⟨S4194304, .i32⟩
  | 65 => ⟨S4194304, .i32⟩
  | 66 => ⟨S4194304, .i32⟩
  | 67 => ⟨S4194304x1, .i32⟩
  | 68 => ⟨S5x4194304, .f32⟩
  | 69 => ⟨S_, .f32⟩
  | 70 => ⟨S4194304, .f32⟩
  | 71 => ⟨S4194304, .f32⟩
  | 72 => ⟨S1x4194304, .f32⟩
  | 73 => ⟨S5x4194304, .f32⟩
  | 74 => ⟨S5x4194304, .f32⟩
  | 75 => ⟨S_, .i32⟩
  | 76 => ⟨S4194304, .i32⟩
  | 77 => ⟨S4194304, .i32⟩
  | 78 => ⟨S_, .i32⟩
  | 79 => ⟨S4194304, .i32⟩
  | 80 => ⟨S4194304, .i1⟩
  | 81 => ⟨S_, .i32⟩
  | 82 => ⟨S4194304, .i32⟩
  | 83 => ⟨S4194304, .i32⟩
  | 84 => ⟨S4194304, .i32⟩
  | 85 => ⟨S4194304x1, .i32⟩
  | 86 => ⟨S5x4194304, .f32⟩
  | 87 => ⟨S1x4194304, .f32⟩
  | 88 => ⟨S5x4194304, .f32⟩
  | 89 => ⟨S5x4194304, .f32⟩
  | 90 => ⟨S5x4194304, .f32⟩
  | 91 => ⟨S5x4194304, .f32⟩
  | 92 => ⟨S_, .f32⟩
  | 93 => ⟨S4194304, .f32⟩
  | 94 => ⟨S4194304, .f32⟩
  | 95 => ⟨S_, .f32⟩
  | 96 => ⟨S4194304, .f32⟩
  | 97 => ⟨S4194304, .f32⟩
  | 98 => ⟨S_, .f32⟩
  | 99 => ⟨S4194304, .f32⟩
  | 100 => ⟨S4194304, .f32⟩
  | 101 => ⟨S_, .f32⟩
  | 102 => ⟨S_, .f32⟩
  | 103 => ⟨S_, .f32⟩
  | 104 => ⟨S4194304, .f32⟩
  | 105 => ⟨S4194304, .f32⟩
  | 106 => ⟨S_, .f32⟩
  | 107 => ⟨S4194304, .f32⟩
  | 108 => ⟨S4194304, .f32⟩
  | 109 => ⟨S4194304, .f32⟩
  | 110 => ⟨S4194304, .i32⟩
  | 111 => ⟨S_, .i32⟩
  | 112 => ⟨S_, .i32⟩
  | 113 => ⟨S_, .i32⟩
  | 114 => ⟨S4194304, .i32⟩
  | 115 => ⟨S4194304, .i32⟩
  | 116 => ⟨S_, .i32⟩
  | 117 => ⟨S4194304, .i32⟩
  | 118 => ⟨S4194304, .i32⟩
  | 119 => ⟨S4194304, .f32⟩
  | 120 => ⟨S4194304, .f32⟩
  | 121 => ⟨S_, .i32⟩
  | 122 => ⟨S4194304, .i32⟩
  | 123 => ⟨S4194304, .i1⟩
  | 124 => ⟨S_, .i32⟩
  | 125 => ⟨S4194304, .i32⟩
  | 126 => ⟨S4194304, .i32⟩
  | 127 => ⟨S4194304, .i32⟩
  | _ => ⟨S4194304x3, .f32⟩

abbrev hbmTy0_2 (i : Nat) : BufTy := match i % 128 with
  | 0 => ⟨S4194304x1, .i32⟩
  | 1 => ⟨S5x4194304, .f32⟩
  | 2 => ⟨S_, .f32⟩
  | 3 => ⟨S4194304, .f32⟩
  | 4 => ⟨S4194304, .f32⟩
  | 5 => ⟨S1x4194304, .f32⟩
  | 6 => ⟨S5x4194304, .f32⟩
  | 7 => ⟨S5x4194304, .f32⟩
  | 8 => ⟨S_, .i32⟩
  | 9 => ⟨S4194304, .i32⟩
  | 10 => ⟨S4194304, .i32⟩
  | 11 => ⟨S_, .i32⟩
  | 12 => ⟨S4194304, .i32⟩
  | 13 => ⟨S4194304, .i1⟩
  | 14 => ⟨S_, .i32⟩
  | 15 => ⟨S4194304, .i32⟩
  | 16 => ⟨S4194304, .i32⟩
  | 17 => ⟨S4194304, .i32⟩
  | 18 => ⟨S4194304x1, .i32⟩
  | 19 => ⟨S5x4194304, .f32⟩
  | 20 => ⟨S1x4194304, .f32⟩
  | 21 => ⟨S5x4194304, .f32⟩
  | 22 => ⟨S5x4194304, .f32⟩
  | 23 => ⟨S5x4194304, .f32⟩
  | 24 => ⟨S5x4194304, .f32⟩
  | 25 => ⟨S4194304x5, .f32⟩
  | 26 => ⟨S5x12, .f32⟩
  | 27 => ⟨S4194304x12, .f32⟩
  | 28 => ⟨S4194304x3x4, .f32⟩
  | _ => ⟨S4194304x3, .f32⟩

abbrev hbmTy (i : Nat) : BufTy := match i / 128 with
  | 0 => hbmTy0_0 i
  | 1 => hbmTy0_1 i
  | 2 => hbmTy0_2 i
  | _ => ⟨S4194304x3, .f32⟩

abbrev bufTy : (tb : Table) → Fin (tcTables nBuf tb) → BufTy
  | .hbm, ⟨i, _⟩ => hbmTy i
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_c_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_9 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_10 : Ref sig .tc := ⟨.hbm, 78, rfl⟩
abbrev main_v43 : Ref sig .tc := ⟨.hbm, 79, rfl⟩
abbrev main_v44 : Ref sig .tc := ⟨.hbm, 80, rfl⟩
abbrev main_c_11 : Ref sig .tc := ⟨.hbm, 81, rfl⟩
abbrev main_v45 : Ref sig .tc := ⟨.hbm, 82, rfl⟩
abbrev main_v46 : Ref sig .tc := ⟨.hbm, 83, rfl⟩
abbrev main_c_12 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_13 : Ref sig .tc := ⟨.hbm, 96, rfl⟩
abbrev main_v58 : Ref sig .tc := ⟨.hbm, 97, rfl⟩
abbrev main_v59 : Ref sig .tc := ⟨.hbm, 98, rfl⟩
abbrev main_cst_14 : Ref sig .tc := ⟨.hbm, 99, rfl⟩
abbrev main_v60 : Ref sig .tc := ⟨.hbm, 100, rfl⟩
abbrev main_v61 : Ref sig .tc := ⟨.hbm, 101, rfl⟩
abbrev main_cst_15 : Ref sig .tc := ⟨.hbm, 102, rfl⟩
abbrev main_v62 : Ref sig .tc := ⟨.hbm, 103, rfl⟩
abbrev main_v63 : Ref sig .tc := ⟨.hbm, 104, rfl⟩
abbrev main_cst_16 : Ref sig .tc := ⟨.hbm, 105, rfl⟩
abbrev main_cst_17 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_c_18 : Ref sig .tc := ⟨.hbm, 115, rfl⟩
abbrev main_c_19 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_c_20 : Ref sig .tc := ⟨.hbm, 125, rfl⟩
abbrev main_v70 : Ref sig .tc := ⟨.hbm, 126, rfl⟩
abbrev main_v71 : Ref sig .tc := ⟨.hbm, 127, rfl⟩
abbrev main_c_21 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_22 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_23 : Ref sig .tc := ⟨.hbm, 140, rfl⟩
abbrev main_v82 : Ref sig .tc := ⟨.hbm, 141, rfl⟩
abbrev main_v83 : Ref sig .tc := ⟨.hbm, 142, rfl⟩
abbrev main_c_24 : Ref sig .tc := ⟨.hbm, 143, rfl⟩
abbrev main_v84 : Ref sig .tc := ⟨.hbm, 144, rfl⟩
abbrev main_v85 : Ref sig .tc := ⟨.hbm, 145, rfl⟩
abbrev main_c_25 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_26 : Ref sig .tc := ⟨.hbm, 159, rfl⟩
abbrev main_v98 : Ref sig .tc := ⟨.hbm, 160, rfl⟩
abbrev main_v99 : Ref sig .tc := ⟨.hbm, 161, rfl⟩
abbrev main_cst_27 : Ref sig .tc := ⟨.hbm, 162, rfl⟩
abbrev main_v100 : Ref sig .tc := ⟨.hbm, 163, rfl⟩
abbrev main_v101 : Ref sig .tc := ⟨.hbm, 164, rfl⟩
abbrev main_cst_28 : Ref sig .tc := ⟨.hbm, 165, rfl⟩
abbrev main_v102 : Ref sig .tc := ⟨.hbm, 166, rfl⟩
abbrev main_v103 : Ref sig .tc := ⟨.hbm, 167, rfl⟩
abbrev main_cst_29 : Ref sig .tc := ⟨.hbm, 168, rfl⟩
abbrev main_cst_30 : Ref sig .tc := ⟨.hbm, 169, rfl⟩
abbrev main_call5_v0 : Ref sig .tc := ⟨.hbm, 170, rfl⟩
abbrev main_call5_v1 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_c_31 : Ref sig .tc := ⟨.hbm, 178, rfl⟩
abbrev main_c_32 : Ref sig .tc := ⟨.hbm, 179, rfl⟩
abbrev main_call6_v0 : Ref sig .tc := ⟨.hbm, 180, rfl⟩
abbrev main_call6_v1 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_c_33 : Ref sig .tc := ⟨.hbm, 188, rfl⟩
abbrev main_v110 : Ref sig .tc := ⟨.hbm, 189, rfl⟩
abbrev main_v111 : Ref sig .tc := ⟨.hbm, 190, rfl⟩
abbrev main_c_34 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_cst_35 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_c_36 : Ref sig .tc := ⟨.hbm, 203, rfl⟩
abbrev main_v122 : Ref sig .tc := ⟨.hbm, 204, rfl⟩
abbrev main_v123 : Ref sig .tc := ⟨.hbm, 205, rfl⟩
abbrev main_c_37 : Ref sig .tc := ⟨.hbm, 206, rfl⟩
abbrev main_v124 : Ref sig .tc := ⟨.hbm, 207, rfl⟩
abbrev main_v125 : Ref sig .tc := ⟨.hbm, 208, rfl⟩
abbrev main_c_38 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_cst_39 : Ref sig .tc := ⟨.hbm, 220, rfl⟩
abbrev main_v136 : Ref sig .tc := ⟨.hbm, 221, rfl⟩
abbrev main_v137 : Ref sig .tc := ⟨.hbm, 222, rfl⟩
abbrev main_cst_40 : Ref sig .tc := ⟨.hbm, 223, rfl⟩
abbrev main_v138 : Ref sig .tc := ⟨.hbm, 224, rfl⟩
abbrev main_v139 : Ref sig .tc := ⟨.hbm, 225, rfl⟩
abbrev main_cst_41 : Ref sig .tc := ⟨.hbm, 226, rfl⟩
abbrev main_v140 : Ref sig .tc := ⟨.hbm, 227, rfl⟩
abbrev main_v141 : Ref sig .tc := ⟨.hbm, 228, rfl⟩
abbrev main_cst_42 : Ref sig .tc := ⟨.hbm, 229, rfl⟩
abbrev main_cst_43 : Ref sig .tc := ⟨.hbm, 230, rfl⟩
abbrev main_call7_v0 : Ref sig .tc := ⟨.hbm, 231, rfl⟩
abbrev main_call7_v1 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_c_44 : Ref sig .tc := ⟨.hbm, 239, rfl⟩
abbrev main_c_45 : Ref sig .tc := ⟨.hbm, 240, rfl⟩
abbrev main_call8_v0 : Ref sig .tc := ⟨.hbm, 241, rfl⟩
abbrev main_call8_v1 : Ref sig .tc := ⟨.hbm, 242, rfl⟩
abbrev main_call8_v2 : Ref sig .tc := ⟨.hbm, 243, rfl⟩
abbrev main_call8_v3 : Ref sig .tc := ⟨.hbm, 244, rfl⟩
abbrev main_call8_v4 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_c_46 : Ref sig .tc := ⟨.hbm, 249, rfl⟩
abbrev main_v148 : Ref sig .tc := ⟨.hbm, 250, rfl⟩
abbrev main_v149 : Ref sig .tc := ⟨.hbm, 251, rfl⟩
abbrev main_c_47 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_cst_48 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_c_49 : Ref sig .tc := ⟨.hbm, 264, rfl⟩
abbrev main_v160 : Ref sig .tc := ⟨.hbm, 265, rfl⟩
abbrev main_v161 : Ref sig .tc := ⟨.hbm, 266, rfl⟩
abbrev main_c_50 : Ref sig .tc := ⟨.hbm, 267, rfl⟩
abbrev main_v162 : Ref sig .tc := ⟨.hbm, 268, rfl⟩
abbrev main_v163 : Ref sig .tc := ⟨.hbm, 269, rfl⟩
abbrev main_c_51 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩

abbrev nD : Nat := 1
abbrev τ : Topo := Topo.v7x

variable {F : FTy → Type} [FloatOps F]

class Facts₀ : Prop where
  bcast_S_S4194304x3 : S_.BroadcastsInDim S4194304x3 (![] : Fin 0 → Fin S4194304x3.rank)
  transposes_S8x3_S3x8_1_0 : S8x3.Transposes [1, 0] S3x8
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  transposes_S1x8_S8x1_1_0 : S1x8.Transposes [1, 0] S8x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  shapeCasts_S4194304x1_S4194304 : S4194304x1.ShapeCasts S4194304
  slices_S4194304x3_S4194304x1_0_0 : S4194304x3.Slices ![0, 0] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304_S1x4194304_1 : S4194304.BroadcastsInDim S1x4194304 (![1] : Fin 1 → Fin S1x4194304.rank)
  bcast_S1x4194304_S5x4194304_0_1 : S1x4194304.BroadcastsInDim S5x4194304 (![0, 1] : Fin 2 → Fin S5x4194304.rank)
  slices_S4194304x3_S4194304x1_0_1 : S4194304x3.Slices ![0, 1] S4194304x1
  slices_S4194304x3_S4194304x1_0_2 : S4194304x3.Slices ![0, 2] S4194304x1
  transposes_S5x4194304_S4194304x5_1_0 : S5x4194304.Transposes [1, 0] S4194304x5
  transposes_S12x5_S5x12_1_0 : S12x5.Transposes [1, 0] S5x12
  shapeCasts_S4194304x12_S4194304x3x4 : S4194304x12.ShapeCasts S4194304x3x4
  dot_S4194304x3_S3x8_S4194304x8_1_0_0_1_n_n_wf : DotDims.WF S4194304x3 S3x8 S4194304x8 [1] [0] [0] [1] [] []
  dot_S4194304x8_S8x1_S4194304x1_1_0_0_1_n_n_wf : DotDims.WF S4194304x8 S8x1 S4194304x1 [1] [0] [0] [1] [] []
  gather_S5x8_S4194304x1_S5x4194304_0_1_n_n_1_1_51_wf : GatherDims.WF S5x8 S4194304x1 S5x4194304 [0] [1] [] [1] [] 1 ![5, 1]
  gather_S5x16_S4194304x1_S5x4194304_0_1_n_n_1_1_51_wf : GatherDims.WF S5x16 S4194304x1 S5x4194304 [0] [1] [] [1] [] 1 ![5, 1]
  dot_S4194304x5_S5x12_S4194304x12_1_0_0_1_n_n_wf : DotDims.WF S4194304x5 S5x12 S4194304x12 [1] [0] [0] [1] [] []

variable [Facts₀]

def dot_S4194304x3_S3x8_S4194304x8_1_0_0_1_n_n : DotDims S4194304x3 S3x8 S4194304x8 where
  lhsContracting := [1]
  rhsContracting := [0]
  lhsNonContracting := [0]
  rhsNonContracting := [1]
  lhsBatch := []
  rhsBatch := []
  wf := dot_S4194304x3_S3x8_S4194304x8_1_0_0_1_n_n_wf
def dot_S4194304x8_S8x1_S4194304x1_1_0_0_1_n_n : DotDims S4194304x8 S8x1 S4194304x1 where
  lhsContracting := [1]
  rhsContracting := [0]
  lhsNonContracting := [0]
  rhsNonContracting := [1]
  lhsBatch := []
  rhsBatch := []
  wf := dot_S4194304x8_S8x1_S4194304x1_1_0_0_1_n_n_wf
def gather_S5x8_S4194304x1_S5x4194304_0_1_n_n_1_1_51 : GatherDims S5x8 S4194304x1 S5x4194304 where
  offsetDims := [0]
  collapsedSliceDims := [1]
  operandBatchingDims := []
  startIndicesBatchingDims := []
  startIndexMap := [1]
  indexVectorDim := 1
  sliceSizes := ![5, 1]
  wf := gather_S5x8_S4194304x1_S5x4194304_0_1_n_n_1_1_51_wf
def gather_S5x16_S4194304x1_S5x4194304_0_1_n_n_1_1_51 : GatherDims S5x16 S4194304x1 S5x4194304 where
  offsetDims := [0]
  collapsedSliceDims := [1]
  operandBatchingDims := []
  startIndicesBatchingDims := []
  startIndexMap := [1]
  indexVectorDim := 1
  sliceSizes := ![5, 1]
  wf := gather_S5x16_S4194304x1_S5x4194304_0_1_n_n_1_1_51_wf
def dot_S4194304x5_S5x12_S4194304x12_1_0_0_1_n_n : DotDims S4194304x5 S5x12 S4194304x12 where
  lhsContracting := [1]
  rhsContracting := [0]
  lhsNonContracting := [0]
  rhsNonContracting := [1]
  lhsBatch := []
  rhsBatch := []
  wf := dot_S4194304x5_S5x12_S4194304x12_1_0_0_1_n_n_wf

class Facts : Prop extends Facts₀ where

variable [Facts]
-- ==== Proof.HatLaw.lean ====
/-
  Linear interpolation on a uniform grid, two ways.

  A grid of D nodes 0, 1, …, D − 1 carries values f 0, …, f (D − 1). For a position p in [0, D − 1] let k be the
  node below it, capped at D − 2, so that k ≤ p ≤ k + 1. The interpolated value

      f k · (1 − (p − k)) + f (k + 1) · (p − k)

  is also the sum over ALL nodes d of f d weighted by the hat function max 0 (1 − |d − p|): the hat is 1 − (p − k)
  at d = k, p − k at d = k + 1, and vanishes at every other node, which lies at distance at least one from p. The
  weights are real numbers; the values f d may be any extended reals, since a product with the weight zero is zero.
-/
import Idealize.ShloMosaic.PureOps.Ideal

noncomputable section

namespace Cert.HatLaw

/-- The node below the position `p`, capped at `D − 2`. -/
def node (D : ℕ) (p : ℝ) : ℕ := min (D - 2) ⌊p⌋.toNat

theorem node_succ_lt (D : ℕ) (hD : 2 ≤ D) (p : ℝ) : node D p + 1 < D := by
  unfold node; omega

/-- The position lies between its node and the next one. -/
theorem node_le (D : ℕ) (hD : 2 ≤ D) (p : ℝ) (h0 : 0 ≤ p) (h1 : p ≤ (D : ℝ) - 1) :
    ((node D p : ℕ) : ℝ) ≤ p ∧ p ≤ ((node D p : ℕ) : ℝ) + 1 := by
  have hfl : (0 : ℤ) ≤ ⌊p⌋ := Int.floor_nonneg.mpr h0
  have h2 : ((⌊p⌋.toNat : ℕ) : ℝ) = (⌊p⌋ : ℝ) := by
    have h : ((⌊p⌋.toNat : ℕ) : ℤ) = ⌊p⌋ := Int.toNat_of_nonneg hfl
    exact_mod_cast congrArg (Int.cast (R := ℝ)) h
  have h3 : (⌊p⌋ : ℝ) ≤ p := Int.floor_le p
  have h4 : p < (⌊p⌋ : ℝ) + 1 := Int.lt_floor_add_one p
  unfold node
  rcases le_total (D - 2) ⌊p⌋.toNat with h | h
  · rw [min_eq_left h]
    have hD2 : ((D - 2 : ℕ) : ℝ) = (D : ℝ) - 2 := by rw [Nat.cast_sub hD]; norm_num
    have h5 : ((D - 2 : ℕ) : ℝ) ≤ ((⌊p⌋.toNat : ℕ) : ℝ) := by exact_mod_cast h
    constructor
    · linarith
    · rw [hD2]; linarith
  · rw [min_eq_right h]
    constructor <;> linarith

/-- The hat function at the nodes, over the reals. -/
theorem hat_real (k : ℕ) (p : ℝ) (hk : (k : ℝ) ≤ p) (hk1 : p ≤ (k : ℝ) + 1) (d : ℕ) :
    max 0 (1 - |(d : ℝ) - p|) = if d = k then 1 - (p - k) else if d = k + 1 then p - k else 0 := by
  split_ifs with h1 h2
  · subst h1
    rw [abs_of_nonpos (by linarith), max_eq_right (by linarith)]; ring
  · subst h2
    push_cast
    rw [abs_of_nonneg (by linarith), max_eq_right (by linarith)]; ring
  · have h3 : (d : ℝ) + 1 ≤ k ∨ (k : ℝ) + 2 ≤ d := by
      rcases lt_or_gt_of_ne h1 with h | h
      · left
        have h4 : d + 1 ≤ k := h
        exact_mod_cast h4
      · right
        have h4 : k + 2 ≤ d := by omega
        exact_mod_cast h4
    rw [max_eq_left]
    rcases h3 with h | h
    · rw [abs_of_nonpos (by linarith)]; linarith
    · rw [abs_of_nonneg (by linarith)]; linarith

/-- The same on the extended reals, the absolute value spelt as the larger of a number and its negative. -/
theorem hat_ereal (k : ℕ) (p : ℝ) (hk : (k : ℝ) ≤ p) (hk1 : p ≤ (k : ℝ) + 1) (d : ℕ) :
    max (0 : EReal) ((1 : EReal) - max ((((d : ℝ)) : EReal) - (p : EReal)) (-((((d : ℝ)) : EReal) - (p : EReal))))
      = (((if d = k then 1 - (p - k) else if d = k + 1 then p - k else 0 : ℝ)) : EReal) := by
  rw [← hat_real k p hk hk1 d, abs_eq_max_neg]
  norm_cast

/-- THE LAW: the hat-weighted sum over all nodes is the two-node interpolation. -/
theorem hat_sum (D : ℕ) (f : Fin D → EReal) (k : ℕ) (hk2 : k + 1 < D) (p : ℝ) (hk : (k : ℝ) ≤ p)
    (hk1 : p ≤ (k : ℝ) + 1) :
    ∑ d : Fin D, f d * max (0 : EReal)
        ((1 : EReal) - max ((((d.val : ℝ)) : EReal) - (p : EReal)) (-((((d.val : ℝ)) : EReal) - (p : EReal))))
      = f ⟨k, by omega⟩ * (((1 - (p - k) : ℝ)) : EReal) + f ⟨k + 1, hk2⟩ * (((p - k : ℝ)) : EReal) := by
  rw [Finset.sum_eq_add (⟨k, by omega⟩ : Fin D) ⟨k + 1, hk2⟩ (by simp [Fin.ext_iff])]
  · rw [hat_ereal k p hk hk1, hat_ereal k p hk hk1, if_pos rfl, if_neg (by simp), if_pos rfl]
  · intro c _ hc
    rw [hat_ereal k p hk hk1, if_neg (fun h => hc.1 (Fin.ext h)), if_neg (fun h => hc.2 (Fin.ext h))]
    simp
  · intro h; exact absurd (Finset.mem_univ _) h
  · intro h; exact absurd (Finset.mem_univ _) h

end Cert.HatLaw

end
-- ==== Proof.LibColGather.lean ====
/-
  A column gather read at an index.

  What `x[:, idx]` of a table `x : [R, D]` at a vector of column numbers lowers to: a gather with offset axis 0,
  collapsed axis 1, start index map [1] and slice sizes [R, 1] over the column numbers as an `[E, 1]` array. The entry
  (r, e) of the result is the table's entry (r, c), where c is the column number `idx[e, 0]` read as a signed integer
  and clamped into [0, D − 1]: the row passes through, the column is looked up.
-/
import Idealize.ShloMosaic.Lib.ValueIdx

noncomputable section

namespace Idealize.ShloMosaic.ColGather

open Idealize.ShloMosaic Idealize.ShloMosaic.ValueIdx

variable {α : Type}

/-- The dimension numbers of a column gather: table `[R, D]`, column numbers `[E, 1]`, result `[R, E]`. -/
abbrev colDims (R D E : Nat)
    (wf : GatherDims.WF ⟨2, ![R, D]⟩ ⟨2, ![E, 1]⟩ ⟨2, ![R, E]⟩ [0] [1] [] [1] [] 1 ![R, 1]) :
    GatherDims ⟨2, ![R, D]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- The column a column number selects: read signed, clamped into `[0, D − 1]`. -/
abbrev colOf {D w : Nat} (hD : 0 < D) (b : BitVec w) : Fin D := ⟨min b.toInt.toNat (D - 1), by omega⟩

/-- THE COLUMN GATHER READ AT `(r, e)`: the table at the same row and the selected column. -/
theorem colGather_apply {R D E w : Nat} (hD : 0 < D)
    (wf : GatherDims.WF ⟨2, ![R, D]⟩ ⟨2, ![E, 1]⟩ ⟨2, ![R, E]⟩ [0] [1] [] [1] [] 1 ![R, 1])
    (x : (⟨2, ![R, D]⟩ : Shape).Idx → α) (idx : IVec ⟨2, ![E, 1]⟩ w) (r : Fin R) (e : Fin E) :
    Host.gather (colDims R D E wf) x idx (ix2 r e) = x (ix2 r (colOf hD (idx (ix2 e (0 : Fin 1))))) := by
  unfold Host.gather
  congr 1
  funext a
  refine Fin.ext ?_
  match a with
  | ⟨0, _⟩ =>
    show (colDims R D E wf).start (ix2 r e) idx 0 + (colDims R D E wf).batchCoord (ix2 r e) 0
      + (colDims R D E wf).offCoord (ix2 r e) 0 = r.val
    rw [GatherDims.batchCoord_eq_zero _ _ _ List.not_mem_nil]
    unfold GatherDims.start
    rw [dif_neg (show (0 : Fin 2) ∉ (colDims R D E wf).startIndexMap from fun h =>
      absurd (show (0 : Nat) = 1 from congrArg Fin.val (List.mem_singleton.mp h)) (by decide))]
    simp only [Nat.add_zero, Nat.zero_add]
    rfl
  | ⟨1, _⟩ =>
    show (colDims R D E wf).start (ix2 r e) idx 1 + (colDims R D E wf).batchCoord (ix2 r e) 1
      + (colDims R D E wf).offCoord (ix2 r e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R D E wf).startIndexMap from List.mem_singleton.mpr rfl)]
    have hsi : (colDims R D E wf).siIdx (ix2 r e) ⟨List.idxOf (1 : Fin 2) (colDims R D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.ColGather

end
-- ==== Proof.InterpWords.lean ====
/-
  The reference's interpolation, word by word, is the hat-weighted sum.

  The reference looks a position p (already clipped into [0, D − 1]) up in a table of D columns: it takes the floor
  of p, converts it to a 32-bit integer, clamps it into [0, D − 2] to get the lower node k, wraps a negative column
  number by D (never needed: k ≥ 0), gathers the columns k and k + 1, and weights them by 1 − (p − k) and p − k. The
  kernel instead weights EVERY column d by max 0 (1 − |d − p|) and sums. Both are the same number (HatLaw).
  A clipped position is always a real number in [0, D − 1], whatever extended real was clipped, so nothing here
  needs the unclipped value to be finite; the table's entries may be any extended reals.
-/
import Idealize.ShloMosaic.PureOps.Ideal
import Idealize.ShloMosaic.PureOps.Ideal.Laws
import Idealize.ShloMosaic.Lib.ValueIdx
import proofs.«121849_j48765058679256_2_alg».proof.Proof.HatLaw
import proofs.«121849_j48765058679256_2_alg».proof.Proof.LibColGather

noncomputable section

namespace Cert.Bilateral

open Idealize.ShloMosaic Idealize.ShloMosaic.ValueIdx Idealize.ShloMosaic.ColGather

/-! ## The float literals of the two programs, as numbers -/

theorem lit_one : Ideal.ofBits .f32 0x3F800000#32 = ((1 : ℝ) : EReal) := by
  simp [Ideal.ofBits, Ideal.ieee, -EReal.coe_mul]; norm_num
theorem lit_seven : Ideal.ofBits .f32 0x40E00000#32 = ((7 : ℝ) : EReal) := by
  simp [Ideal.ofBits, Ideal.ieee, -EReal.coe_mul]; norm_num
theorem lit_fifteen : Ideal.ofBits .f32 0x41700000#32 = ((15 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num

/-- Dividing by the literal 2 is multiplying by the literal 1/2, on every extended real. -/
theorem div_two_eq_mul_half (x : EReal) :
    Ideal.div x (Ideal.ofBits .f32 0x40000000#32) = x * Ideal.ofBits .f32 0x3F000000#32 := by
  rw [lit_two, lit_half]
  exact Ideal.div_coe (by norm_num) x

/-- A clipped value is a real number in the clipping interval. -/
theorem clip_real (t : ℝ) (ht : 0 ≤ t) (s : EReal) :
    ∃ p : ℝ, 0 ≤ p ∧ p ≤ t ∧ min ((t : ℝ) : EReal) (max ((0 : ℝ) : EReal) s) = (p : EReal) := by
  induction s using EReal.rec with
  | bot => exact ⟨0, le_rfl, ht, by rw [max_eq_left bot_le, min_eq_right (by exact_mod_cast ht)]⟩
  | top => exact ⟨t, ht, le_rfl, by rw [max_eq_right le_top, min_eq_left le_top]⟩
  | coe r => exact ⟨min t (max 0 r), le_min ht (le_max_left _ _), min_le_left _ _, by norm_cast⟩

/-! ## The reference's words -/

/-- The lower node as a word: floor, convert, clamp into `[0, hi]`. -/
def nodeWord (hi : BitVec 32) (pos : EReal) : BitVec 32 :=
  IntOp.minsi hi (IntOp.maxsi 0#32 (Ideal.fptosi 32 (Ideal.liftRound Int.floor pos)))

/-- A negative column number counts from the end. -/
def wrapWord (D : BitVec 32) (w : BitVec 32) : BitVec 32 :=
  Scalar.select (IntOp.cmpi .slt w 0#32) (IntOp.addi w D) w

/-- The two-node interpolation as the reference computes it. -/
def interpRef {D : ℕ} (hD : 0 < D) (hi Dw : BitVec 32) (f : Fin D → EReal) (pos : EReal) : EReal :=
  f (colOf hD (wrapWord Dw (nodeWord hi pos)))
      * (Ideal.ofBits .f32 0x3F800000#32 - (pos - (((nodeWord hi pos).toInt : ℝ) : EReal)))
    + f (colOf hD (wrapWord Dw (IntOp.addi (nodeWord hi pos) 1#32)))
      * (pos - (((nodeWord hi pos).toInt : ℝ) : EReal))

/-- The hat-weighted sum over all columns as the kernel computes it. -/
def hatSum (D : ℕ) (f : Fin D → EReal) (pos : EReal) : EReal :=
  ∑ d : Fin D, f d * max (Ideal.ofBits .f32 0x00000000#32)
    (Ideal.ofBits .f32 0x3F800000#32
      - max ((((BitVec.ofNat 32 d.val).toInt : ℝ) : EReal) - pos) (-((((BitVec.ofNat 32 d.val).toInt : ℝ) : EReal) - pos)))

/-- The integer facts, decided column by column for a table of 16 columns. -/
theorem words16 : ∀ k : Fin 16,
    (IntOp.minsi 14#32 (IntOp.maxsi 0#32 (BitVec.ofInt 32 (k.val : ℤ)))).toInt = ((min 14 k.val : ℕ) : ℤ)
    ∧ wrapWord 16#32 (IntOp.minsi 14#32 (IntOp.maxsi 0#32 (BitVec.ofInt 32 (k.val : ℤ))))
        = IntOp.minsi 14#32 (IntOp.maxsi 0#32 (BitVec.ofInt 32 (k.val : ℤ)))
    ∧ wrapWord 16#32 (IntOp.addi (IntOp.minsi 14#32 (IntOp.maxsi 0#32 (BitVec.ofInt 32 (k.val : ℤ)))) 1#32)
        = IntOp.addi (IntOp.minsi 14#32 (IntOp.maxsi 0#32 (BitVec.ofInt 32 (k.val : ℤ)))) 1#32
    ∧ (IntOp.addi (IntOp.minsi 14#32 (IntOp.maxsi 0#32 (BitVec.ofInt 32 (k.val : ℤ)))) 1#32).toInt
        = ((min 14 k.val + 1 : ℕ) : ℤ)
    ∧ (BitVec.ofNat 32 k.val).toInt = (k.val : ℤ) := by
  decide +kernel

/-- The same for a table of 8 columns. -/
theorem words8 : ∀ k : Fin 8,
    (IntOp.minsi 6#32 (IntOp.maxsi 0#32 (BitVec.ofInt 32 (k.val : ℤ)))).toInt = ((min 6 k.val : ℕ) : ℤ)
    ∧ wrapWord 8#32 (IntOp.minsi 6#32 (IntOp.maxsi 0#32 (BitVec.ofInt 32 (k.val : ℤ))))
        = IntOp.minsi 6#32 (IntOp.maxsi 0#32 (BitVec.ofInt 32 (k.val : ℤ)))
    ∧ wrapWord 8#32 (IntOp.addi (IntOp.minsi 6#32 (IntOp.maxsi 0#32 (BitVec.ofInt 32 (k.val : ℤ)))) 1#32)
        = IntOp.addi (IntOp.minsi 6#32 (IntOp.maxsi 0#32 (BitVec.ofInt 32 (k.val : ℤ)))) 1#32
    ∧ (IntOp.addi (IntOp.minsi 6#32 (IntOp.maxsi 0#32 (BitVec.ofInt 32 (k.val : ℤ)))) 1#32).toInt
        = ((min 6 k.val + 1 : ℕ) : ℤ)
    ∧ (BitVec.ofNat 32 k.val).toInt = (k.val : ℤ) := by
  decide +kernel

/-- The floor of a real in `[0, D − 1]`, converted to a word, is the word of a column number. -/
theorem floor_word (D : ℕ) (hD : D ≤ 2 ^ 20) (p : ℝ) (h0 : 0 ≤ p) (h1 : p ≤ (D : ℝ) - 1) :
    ∃ k : ℕ, k < D ∧ ⌊p⌋.toNat = k
      ∧ Ideal.fptosi 32 (Ideal.liftRound Int.floor (p : EReal)) = BitVec.ofInt 32 (k : ℤ) := by
  have hfl : (0 : ℤ) ≤ ⌊p⌋ := Int.floor_nonneg.mpr h0
  have hlt : ⌊p⌋ < (D : ℤ) := by
    rw [Int.floor_lt]; push_cast; linarith
  refine ⟨⌊p⌋.toNat, by omega, rfl, ?_⟩
  have hk : ((⌊p⌋.toNat : ℕ) : ℤ) = ⌊p⌋ := Int.toNat_of_nonneg hfl
  rw [hk]
  show BitVec.ofInt 32 (Ideal.toIntClamped _ _ (((⌊p⌋ : ℤ) : ℝ) : EReal)) = _
  rw [Ideal.toIntClamped_coe, if_pos (by exact_mod_cast hfl), Int.floor_intCast]
  congr 1
  have h2 : ⌊p⌋ ≤ ((2 ^ (32 - 1) : ℕ) : ℤ) - 1 := by
    have : (D : ℤ) ≤ 2 ^ 20 := by exact_mod_cast hD
    norm_num; omega
  rw [min_eq_right h2, max_eq_right (by omega)]

/-- THE TWO COMPUTATIONS AGREE, for a table of `D` columns whose integer facts `hw` have been decided: at a position
    clipped into `[0, D − 1]` the reference's two-node interpolation is the kernel's hat-weighted sum. -/
theorem interp_eq_of_words (D : ℕ) (hD2 : 2 ≤ D) (hDb : D ≤ 2 ^ 20) (hi Dw : BitVec 32) (topLit : EReal)
    (htop : topLit = ((((D : ℝ) - 1 : ℝ)) : EReal))
    (hw : ∀ k : Fin D,
      (IntOp.minsi hi (IntOp.maxsi 0#32 (BitVec.ofInt 32 (k.val : ℤ)))).toInt = ((min (D - 2) k.val : ℕ) : ℤ)
      ∧ wrapWord Dw (IntOp.minsi hi (IntOp.maxsi 0#32 (BitVec.ofInt 32 (k.val : ℤ))))
          = IntOp.minsi hi (IntOp.maxsi 0#32 (BitVec.ofInt 32 (k.val : ℤ)))
      ∧ wrapWord Dw (IntOp.addi (IntOp.minsi hi (IntOp.maxsi 0#32 (BitVec.ofInt 32 (k.val : ℤ)))) 1#32)
          = IntOp.addi (IntOp.minsi hi (IntOp.maxsi 0#32 (BitVec.ofInt 32 (k.val : ℤ)))) 1#32
      ∧ (IntOp.addi (IntOp.minsi hi (IntOp.maxsi 0#32 (BitVec.ofInt 32 (k.val : ℤ)))) 1#32).toInt
          = ((min (D - 2) k.val + 1 : ℕ) : ℤ)
      ∧ (BitVec.ofNat 32 k.val).toInt = (k.val : ℤ))
    (f : Fin D → EReal) (s : EReal) :
    interpRef (D := D) (by omega) hi Dw f (min topLit (max (Ideal.ofBits .f32 0x00000000#32) s))
      = hatSum D f (min topLit (max (Ideal.ofBits .f32 0x00000000#32) s)) := by
  have hDr : (0 : ℝ) ≤ (D : ℝ) - 1 := by
    have : (2 : ℝ) ≤ (D : ℝ) := by exact_mod_cast hD2
    linarith
  obtain ⟨p, h0, h1, hp⟩ := clip_real ((D : ℝ) - 1) hDr s
  have hpos : min topLit (max (Ideal.ofBits .f32 0x00000000#32) s) = (p : EReal) := by
    rw [htop, Ideal.ofBits_zero_f32, ← EReal.coe_zero]; exact hp
  rw [hpos]
  obtain ⟨k, hkD, hfloor, hword⟩ := floor_word D hDb p h0 h1
  obtain ⟨w1, w2, w3, w4, -⟩ :
      (IntOp.minsi hi (IntOp.maxsi 0#32 (BitVec.ofInt 32 (k : ℤ)))).toInt = ((min (D - 2) k : ℕ) : ℤ)
      ∧ wrapWord Dw (IntOp.minsi hi (IntOp.maxsi 0#32 (BitVec.ofInt 32 (k : ℤ))))
          = IntOp.minsi hi (IntOp.maxsi 0#32 (BitVec.ofInt 32 (k : ℤ)))
      ∧ wrapWord Dw (IntOp.addi (IntOp.minsi hi (IntOp.maxsi 0#32 (BitVec.ofInt 32 (k : ℤ)))) 1#32)
          = IntOp.addi (IntOp.minsi hi (IntOp.maxsi 0#32 (BitVec.ofInt 32 (k : ℤ)))) 1#32
      ∧ (IntOp.addi (IntOp.minsi hi (IntOp.maxsi 0#32 (BitVec.ofInt 32 (k : ℤ)))) 1#32).toInt
          = ((min (D - 2) k + 1 : ℕ) : ℤ)
      ∧ (BitVec.ofNat 32 k).toInt = (k : ℤ) := hw ⟨k, hkD⟩
  have hn : HatLaw.node D p = min (D - 2) k := by unfold HatLaw.node; rw [hfloor]
  obtain ⟨hle, hle1⟩ := HatLaw.node_le D hD2 p h0 h1
  have hlt := HatLaw.node_succ_lt D hD2 p
  have hlt' : min (D - 2) k + 1 < D := hn ▸ hlt
  have hd : ∀ d : Fin D, (((BitVec.ofNat 32 d.val).toInt : ℝ) : EReal) = (((d.val : ℝ)) : EReal) := fun d => by
    rw [(hw d).2.2.2.2]; norm_cast
  have c1 : colOf (D := D) (by omega) (IntOp.minsi hi (IntOp.maxsi 0#32 (BitVec.ofInt 32 (k : ℤ))))
      = ⟨HatLaw.node D p, by omega⟩ := Fin.ext (by
    show min (IntOp.minsi hi (IntOp.maxsi 0#32 (BitVec.ofInt 32 (k : ℤ)))).toInt.toNat (D - 1) = HatLaw.node D p
    rw [w1, Int.toNat_natCast, hn]; omega)
  have c2 : colOf (D := D) (by omega)
      (IntOp.addi (IntOp.minsi hi (IntOp.maxsi 0#32 (BitVec.ofInt 32 (k : ℤ)))) 1#32)
      = ⟨HatLaw.node D p + 1, hlt⟩ := Fin.ext (by
    show min (IntOp.addi (IntOp.minsi hi (IntOp.maxsi 0#32 (BitVec.ofInt 32 (k : ℤ)))) 1#32).toInt.toNat (D - 1)
      = HatLaw.node D p + 1
    rw [w4, Int.toNat_natCast, hn]; omega)
  unfold interpRef hatSum nodeWord
  rw [hword]
  simp only [hd]
  rw [w2, w3, c1, c2, w1, Ideal.ofBits_zero_f32, lit_one, EReal.coe_one,
    HatLaw.hat_sum D f (HatLaw.node D p) hlt p hle hle1, ← hn]
  norm_cast

/-- A table of 8 columns, its last node the literal 7. -/
theorem interp_eq8 (f : Fin 8 → EReal) (s : EReal) :
    interpRef (D := 8) (by decide) 6#32 8#32 f
        (min (Ideal.ofBits .f32 0x40E00000#32) (max (Ideal.ofBits .f32 0x00000000#32) s))
      = hatSum 8 f (min (Ideal.ofBits .f32 0x40E00000#32) (max (Ideal.ofBits .f32 0x00000000#32) s)) :=
  interp_eq_of_words 8 (by decide) (by decide) 6#32 8#32 _ (by rw [lit_seven]; norm_num) words8 f s

/-- A table of 16 columns, its last node the literal 15. -/
theorem interp_eq16 (f : Fin 16 → EReal) (s : EReal) :
    interpRef (D := 16) (by decide) 14#32 16#32 f
        (min (Ideal.ofBits .f32 0x41700000#32) (max (Ideal.ofBits .f32 0x00000000#32) s))
      = hatSum 16 f (min (Ideal.ofBits .f32 0x41700000#32) (max (Ideal.ofBits .f32 0x00000000#32) s)) :=
  interp_eq_of_words 16 (by decide) (by decide) 14#32 16#32 _ (by rw [lit_fifteen]; norm_num) words16 f s

end Cert.Bilateral

end
-- ==== Proof.Spec.lean ====
/-
  What both programs compute, as one function of the argument arrays.

  A point n has coordinates xyz[n, 0..2] and a colour rgb[n, 0..2]. A small network turns the colour into a grey
  level: hidden unit k is max(∑_c w1[k,c]·rgb[n,c] + b1[k], 0) and the grey level is tanh(2·(∑_k w2[0,k]·hidden k + b2[0])).
  Each of the three halved coordinates and the grey level is moved from [−1, 1] onto a grid of D nodes,
  p = clip(((v + 1)·½)·(D − 1), 0, D − 1), and a table of D columns is interpolated there: row r of table fac gives
  ∑_d fac[r,d]·max(0, 1 − |d − p|). The four interpolated rows are multiplied entry by entry (the coefficient of
  component r at point n) and projected by fac0: entry (n, j) of the result is ∑_r fac0[j,r]·coef r n, laid out
  as [N, 3, 4] with j = 4a + b. The scalar formulas come first, over rows and numbers, so that a block of the
  kernel and the whole arrays of the reference are read through the same functions.
-/
import proofs.«121849_j48765058679256_2_alg».proof.Proof.InterpWords

noncomputable section

namespace Cert.Bilateral

open Idealize.ShloMosaic Idealize.ShloMosaic.ValueIdx

/-! ## On numbers and rows -/

/-- A position on a grid whose last node is `top`, from a value nominally in [−1, 1]. -/
def gpos (top v : EReal) : EReal :=
  min top (max (Ideal.ofBits .f32 0x00000000#32)
    (((v + Ideal.ofBits .f32 0x3F800000#32) * Ideal.ofBits .f32 0x3F000000#32) * top))

/-- A hidden unit of the grey-level network: weights `w`, colour `c`, bias `b`. -/
def hiddenS (w c : Fin 3 → EReal) (b : EReal) : EReal :=
  max (∑ i : Fin 3, w i * c i + b) (Ideal.ofBits .f32 0x00000000#32)

/-- The grey level: output weights `w`, hidden units `h`, bias `b`. -/
def grayS (w h : Fin 8 → EReal) (b : EReal) : EReal :=
  Ideal.tanh (Ideal.ofBits .f32 0x40000000#32 * (∑ k : Fin 8, w k * h k + b))

/-- The product of the four interpolated table rows at the coordinates `a0 a1 a2` and the grey level `g`. -/
def coefS (f1 : Fin 8 → EReal) (f2 f3 f4 : Fin 16 → EReal) (a0 a1 a2 g : EReal) : EReal :=
  ((hatSum 8 f1 (gpos (Ideal.ofBits .f32 0x40E00000#32) (a0 * Ideal.ofBits .f32 0x3F000000#32))
      * hatSum 16 f2 (gpos (Ideal.ofBits .f32 0x41700000#32) (a1 * Ideal.ofBits .f32 0x3F000000#32)))
    * hatSum 16 f3 (gpos (Ideal.ofBits .f32 0x41700000#32) (a2 * Ideal.ofBits .f32 0x3F000000#32)))
  * hatSum 16 f4 (gpos (Ideal.ofBits .f32 0x41700000#32) g)

/-- The projection of the five coefficients by a row of the last table. -/
def outS (w cf : Fin 5 → EReal) : EReal := ∑ r : Fin 5, w r * cf r

/-! ## On the argument arrays -/

section
variable (x0 x1 : (⟨2, ![4194304, 3]⟩ : Shape).Idx → EReal) (x2 : (⟨2, ![12, 5]⟩ : Shape).Idx → EReal)
  (x3 : (⟨2, ![5, 8]⟩ : Shape).Idx → EReal) (x4 x5 x6 : (⟨2, ![5, 16]⟩ : Shape).Idx → EReal)
  (x7 : (⟨2, ![8, 3]⟩ : Shape).Idx → EReal) (x8 : (⟨1, ![8]⟩ : Shape).Idx → EReal)
  (x9 : (⟨2, ![1, 8]⟩ : Shape).Idx → EReal) (x10 : (⟨1, ![1]⟩ : Shape).Idx → EReal)

/-- The grey level of point `n`. -/
def gray (n : Fin 4194304) : EReal :=
  grayS (fun k => x9 (ix2 (0 : Fin 1) k))
    (fun k => hiddenS (fun c => x7 (ix2 k c)) (fun c => x1 (ix2 n c)) (x8 (ix1 k))) (x10 (ix1 (0 : Fin 1)))

/-- The coefficient of component `r` at point `n`. -/
def coef (r : Fin 5) (n : Fin 4194304) : EReal :=
  coefS (fun d => x3 (ix2 r d)) (fun d => x4 (ix2 r d)) (fun d => x5 (ix2 r d)) (fun d => x6 (ix2 r d))
    (x0 (ix2 n (0 : Fin 3))) (x0 (ix2 n (1 : Fin 3))) (x0 (ix2 n (2 : Fin 3))) (gray x1 x7 x8 x9 x10 n)

/-- Entry `j` of the projected coefficients of point `n`. -/
def out12 (j : Fin 12) (n : Fin 4194304) : EReal :=
  outS (fun r => x2 (ix2 j r)) (fun r => coef x0 x1 x3 x4 x5 x6 x7 x8 x9 x10 r n)

/-- The row-major position of an index of the `[4194304, 3, 4]` result. -/
def flatPos (i : (⟨3, ![4194304, 3, 4]⟩ : Shape).Idx) : ℕ := ((i 0).val * 3 + (i 1).val) * 4 + (i 2).val

theorem flatPos_div_lt (i : (⟨3, ![4194304, 3, 4]⟩ : Shape).Idx) : flatPos i / 12 < 4194304 := by
  have h0 : (i 0).val < 4194304 := (i 0).isLt
  have h1 : (i 1).val < 3 := (i 1).isLt
  have h2 : (i 2).val < 4 := (i 2).isLt
  unfold flatPos; omega

theorem flatPos_mod_lt (i : (⟨3, ![4194304, 3, 4]⟩ : Shape).Idx) : flatPos i % 12 < 12 := Nat.mod_lt _ (by decide)

/-- THE RESULT, as one function of the eleven argument arrays. -/
def G : (⟨3, ![4194304, 3, 4]⟩ : Shape).Idx → EReal := fun i =>
  out12 x0 x1 x2 x3 x4 x5 x6 x7 x8 x9 x10 ⟨flatPos i % 12, flatPos_mod_lt i⟩ ⟨flatPos i / 12, flatPos_div_lt i⟩

end

end Cert.Bilateral

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KernelPieces.lean ====
/-
  The kernel body's building blocks read at an index, over blocks of any width B.

  The body works on [feature, B] arrays, one column per point. Three patterns recur: a row of values moved onto a
  grid (pointwise); the [D, B] matrix of hat weights max 0 (1 − |d − p_q|) built from the column numbers 0 … D − 1 and
  the row of positions; and a table [R, D] times that matrix, whose entry (r, q) is the hat-weighted sum of row r of
  the table at the position of column q.
-/
import Idealize.ShloMosaic.Lib.Pipeline.Value
import Idealize.ShloMosaic.Lib.ValueLayout
import proofs.«121849_j48765058679256_2_alg».proof.Proof.Spec
import proofs.«121849_j48765058679256_2_alg».proof.Proof.LibPlainDot
import proofs.«121849_j48765058679256_2_alg».proof.Proof.LibKeepdims

noncomputable section

namespace Cert.Bilateral

open Idealize.ShloMosaic Idealize.ShloMosaic.ValueIdx Idealize.ShloMosaic.PlainDot Cert.LibKeepdims

variable {B : ℕ}

/-- The hat weights: row `d`, column `q` is max 0 (1 − |d − pos q|). -/
def hatMatrix (D : ℕ) (hI : (⟨2, ![D, 1]⟩ : Shape).Iotas .tc 32 [0])
    (h1 : (⟨2, ![D, 1]⟩ : Shape).Broadcasts ⟨2, ![D, B]⟩) (h2 : (⟨2, ![1, B]⟩ : Shape).Broadcasts ⟨2, ![D, B]⟩)
    (pos : FVec Ideal ⟨2, ![1, B]⟩ .f32) : FVec Ideal ⟨2, ![D, B]⟩ .f32 :=
  maximumf (broadcast ⟨2, ![D, B]⟩ (Scalar.ofBits .f32 0x00000000#32))
    (subf (broadcast ⟨2, ![D, B]⟩ (Scalar.ofBits .f32 0x3F800000#32))
      (absf (subf (broadcastTo ⟨2, ![D, B]⟩ (sitofp .f32 (iota .tc ⟨2, ![D, 1]⟩ 32 [0] hI)) h1)
        (broadcastTo ⟨2, ![D, B]⟩ pos h2))))

theorem hatMatrix_apply (D : ℕ) (hI : (⟨2, ![D, 1]⟩ : Shape).Iotas .tc 32 [0])
    (h1 : (⟨2, ![D, 1]⟩ : Shape).Broadcasts ⟨2, ![D, B]⟩) (h2 : (⟨2, ![1, B]⟩ : Shape).Broadcasts ⟨2, ![D, B]⟩)
    (pos : FVec Ideal ⟨2, ![1, B]⟩ .f32) (d : Fin D) (q : Fin B) :
    hatMatrix D hI h1 h2 pos (ix2 d q)
      = max (Ideal.ofBits .f32 0x00000000#32) (Ideal.ofBits .f32 0x3F800000#32
          - max ((((BitVec.ofNat 32 d.val).toInt : ℝ) : EReal) - pos (ix2 (0 : Fin 1) q))
              (-((((BitVec.ofNat 32 d.val).toInt : ℝ) : EReal) - pos (ix2 (0 : Fin 1) q)))) := by
  show max (Ideal.ofBits .f32 0x00000000#32) (Ideal.ofBits .f32 0x3F800000#32
      - max (broadcastTo ⟨2, ![D, B]⟩ (sitofp (F := Ideal) .f32 (iota .tc ⟨2, ![D, 1]⟩ 32 [0] hI)) h1 (ix2 d q)
            - broadcastTo ⟨2, ![D, B]⟩ pos h2 (ix2 d q))
          (-(broadcastTo ⟨2, ![D, B]⟩ (sitofp (F := Ideal) .f32 (iota .tc ⟨2, ![D, 1]⟩ 32 [0] hI)) h1 (ix2 d q)
            - broadcastTo ⟨2, ![D, B]⟩ pos h2 (ix2 d q)))) = _
  rw [broadcastTo_a1_ab_apply, broadcastTo_1b_ab_apply]
  show max _ (_ - max ((((iota .tc ⟨2, ![D, 1]⟩ 32 [0] hI (ix2 d (0 : Fin 1))).toInt : ℝ) : EReal) - _)
      (-((((iota .tc ⟨2, ![D, 1]⟩ 32 [0] hI (ix2 d (0 : Fin 1))).toInt : ℝ) : EReal) - _))) = _
  rw [iota_single_apply]
  rfl

/-- A table times the hat weights of a row of positions: the hat-weighted sums of the table's rows. -/
theorem table_hat_apply (R D : ℕ) (hI : (⟨2, ![D, 1]⟩ : Shape).Iotas .tc 32 [0])
    (h1 : (⟨2, ![D, 1]⟩ : Shape).Broadcasts ⟨2, ![D, B]⟩) (h2 : (⟨2, ![1, B]⟩ : Shape).Broadcasts ⟨2, ![D, B]⟩)
    (T : FVec Ideal ⟨2, ![R, D]⟩ .f32) (pos : FVec Ideal ⟨2, ![1, B]⟩ .f32) (r : Fin R) (q : Fin B) :
    FloatOps.matmul (DotDims.plain R D B) none (truncf .bf16 T (by decide))
        (truncf .bf16 (hatMatrix D hI h1 h2 pos) (by decide)) (constant ⟨2, ![R, B]⟩ .f32 0x00000000#32) (ix2 r q)
      = hatSum D (fun d => T (ix2 r d)) (pos (ix2 (0 : Fin 1) q)) := by
  rw [matmul_zero_apply]
  unfold hatSum
  refine Finset.sum_congr rfl fun d _ => ?_
  rw [truncf_apply, truncf_apply, hatMatrix_apply]

/-- A row of values moved onto the grid, read at a column. -/
theorem gridRow_apply (top : BitVec 32) (v : FVec Ideal ⟨2, ![1, B]⟩ .f32) (q : Fin B) :
    minimumf (broadcast ⟨2, ![1, B]⟩ (Scalar.ofBits (F := Ideal) .f32 top))
        (maximumf (broadcast ⟨2, ![1, B]⟩ (Scalar.ofBits (F := Ideal) .f32 0x00000000#32))
          (mulf (mulf (addf v (broadcast ⟨2, ![1, B]⟩ (Scalar.ofBits (F := Ideal) .f32 0x3F800000#32)))
              (broadcast ⟨2, ![1, B]⟩ (Scalar.ofBits (F := Ideal) .f32 0x3F000000#32)))
            (broadcast ⟨2, ![1, B]⟩ (Scalar.ofBits (F := Ideal) .f32 top)))) (ix2 (0 : Fin 1) q)
      = gpos (Ideal.ofBits .f32 top) (v (ix2 (0 : Fin 1) q)) := rfl

end Cert.Bilateral

end
-- ==== Proof.KernelBlock.lean ====
/-
  What the kernel body stores, read at an entry of its block.

  At a grid point the body holds a block of B = 16384 points: rows of the transposed coordinates and colours, and the
  small tables whole. Entry (j, q) of the stored [12, B] block is the projection, by row j of the last table, of the
  five coefficients of column q — the product of four interpolated table rows at the three halved coordinates and the
  grey level of that column. Each stage of the body is read at an index in turn; the pointwise stages are the scalar
  formulas by unfolding, a matrix product against the zero block is a plain sum, and a product of a table with the hat
  weights is the hat-weighted sum.
-/
import proofs.«121849_j48765058679256_2_alg».proof.Proof.Gen.KernelIdeal.Skeleton
import proofs.«121849_j48765058679256_2_alg».proof.Proof.KernelPieces

noncomputable section

namespace Cert.Bilateral.KernelBlock

open Idealize.ShloMosaic Idealize.ShloMosaic.ValueIdx Idealize.ShloMosaic.PlainDot Cert.LibKeepdims
open Cert.KernelIdeal Cert.KernelIdeal.Gen Cert.Bilateral

variable (X0 X1 : FVec Ideal S3x16384 .f32) (X2 : FVec Ideal S12x5 .f32) (X3 : FVec Ideal S5x8 .f32)
  (X4 X5 X6 : FVec Ideal S5x16 .f32) (X7 : FVec Ideal S8x3 .f32) (X8 : FVec Ideal S8x1 .f32)
  (X9 : FVec Ideal S1x8 .f32) (X10 : FVec Ideal S1x1 .f32)

/-- The halved coordinates. -/
theorem pay2_apply (c : Fin 3) (q : Fin 16384) :
    k0_pay2 (F := Ideal) X0 (ix2 c q) = X0 (ix2 c q) * Ideal.ofBits .f32 0x3F000000#32 := by
  show shapeCast S3x16384 X0 shapeCasts_S3x16384_S3x16384 (ix2 c q) * _ = _
  rw [shapeCast_self]
  rfl

/-- A row cut out of the halved coordinates. -/
theorem coordRow_apply (c : Fin 3) (h : S3x16384.Slices ![c.val, 0] S1x16384) (q : Fin 16384) :
    extractStridedSlice S1x16384 ![c.val, 0] (k0_pay2 (F := Ideal) X0) h (ix2 (0 : Fin 1) q)
      = X0 (ix2 c q) * Ideal.ofBits .f32 0x3F000000#32 := by
  rw [slice2_axis0_apply c.val (k0_pay2 (F := Ideal) X0) h (0 : Fin 1) q c (by simp), pay2_apply]

/-- The grey level of a column. -/
theorem pay3_apply (q : Fin 16384) :
    k0_pay3 (F := Ideal) X1 X7 X8 X9 X10 (ix2 (0 : Fin 1) q)
      = grayS (fun k => X9 (ix2 (0 : Fin 1) k))
          (fun k => hiddenS (fun c => X7 (ix2 k c)) (fun c => X1 (ix2 c q)) (X8 (ix2 k (0 : Fin 1))))
          (X10 (ix2 (0 : Fin 1) (0 : Fin 1))) := by
  unfold grayS
  show Ideal.tanh (Ideal.ofBits .f32 0x40000000#32 *
    (FloatOps.matmul (F := Ideal) (DotDims.plain 1 8 16384) none (truncf .bf16 X9 bitsLt_bf16_f32)
        (truncf .bf16 (maximumf (addf (FloatOps.matmul (F := Ideal) (DotDims.plain 8 3 16384) none (truncf .bf16 X7 bitsLt_bf16_f32)
              (truncf .bf16 (shapeCast S3x16384 X1 shapeCasts_S3x16384_S3x16384) bitsLt_bf16_f32)
              (constant (F := Ideal) S8x16384 .f32 0x00000000#32))
            (broadcastTo S8x16384 (shapeCast S8x1 X8 shapeCasts_S8x1_S8x1) broadcasts_S8x1_S8x16384))
          (broadcast S8x16384 (Scalar.ofBits (F := Ideal) .f32 0x00000000#32))) bitsLt_bf16_f32)
        (constant (F := Ideal) S1x16384 .f32 0x00000000#32) (ix2 (0 : Fin 1) q)
      + broadcastTo S1x16384 (shapeCast S1x1 X10 shapeCasts_S1x1_S1x1) broadcasts_S1x1_S1x16384 (ix2 (0 : Fin 1) q))) = _
  rw [matmul_zero_apply, broadcastTo_a1_ab_apply]
  simp only [shapeCast_self]
  congr 3
  refine Finset.sum_congr rfl fun k _ => ?_
  rw [truncf_apply, truncf_apply]
  congr 1
  unfold hiddenS
  show max (FloatOps.matmul (F := Ideal) (DotDims.plain 8 3 16384) none (truncf .bf16 X7 bitsLt_bf16_f32)
        (truncf .bf16 X1 bitsLt_bf16_f32)
        (constant (F := Ideal) S8x16384 .f32 0x00000000#32) (ix2 k q)
      + broadcastTo S8x16384 X8 broadcasts_S8x1_S8x16384 (ix2 k q)) _ = _
  rw [matmul_zero_apply, broadcastTo_a1_ab_apply]
  rfl

/-- Coordinate 0 on its grid: the clip's two halves are two values of the body. -/
theorem pos0_apply (q : Fin 16384) :
    min (k0_pay5 (F := Ideal) (ix2 (0 : Fin 1) q)) (k0_pay4 (F := Ideal) X0 (ix2 (0 : Fin 1) q))
      = gpos (Ideal.ofBits .f32 0x40E00000#32) (X0 (ix2 (0 : Fin 3) q) * Ideal.ofBits .f32 0x3F000000#32) := by
  show min _ (max _ (((extractStridedSlice S1x16384 ![(0 : Fin 3).val, 0] (k0_pay2 (F := Ideal) X0)
    slices_S3x16384_o0_0_S1x16384 (ix2 (0 : Fin 1) q) + _) * _) * _)) = _
  rw [coordRow_apply]
  rfl

/-- Tables 1 and 2 interpolated and multiplied. -/
theorem pay6_apply (v3 : FVec Ideal S3x16384 .f32) (v35 v36 : FVec Ideal S1x16384 .f32) (r : Fin 5) (q : Fin 16384) :
    k0_pay6 (F := Ideal) v3 v35 v36 X3 X4 (ix2 r q)
      = hatSum 8 (fun d => X3 (ix2 r d)) (min (v36 (ix2 (0 : Fin 1) q)) (v35 (ix2 (0 : Fin 1) q)))
        * hatSum 16 (fun d => X4 (ix2 r d)) (gpos (Ideal.ofBits .f32 0x41700000#32)
            (extractStridedSlice S1x16384 ![1, 0] v3 slices_S3x16384_o1_0_S1x16384 (ix2 (0 : Fin 1) q))) := by
  show (FloatOps.matmul (F := Ideal) (DotDims.plain 5 8 16384) none (truncf .bf16 X3 bitsLt_bf16_f32)
        (truncf .bf16 (hatMatrix 8 iota_S8x1_d0_w32 broadcasts_S8x1_S8x16384 broadcasts_S1x16384_S8x16384 (minimumf v36 v35)) bitsLt_bf16_f32) (constant (F := Ideal) S5x16384 .f32 0x00000000#32) (ix2 r q))
      * (FloatOps.matmul (F := Ideal) (DotDims.plain 5 16 16384) none (truncf .bf16 X4 bitsLt_bf16_f32)
        (truncf .bf16 (hatMatrix 16 iota_S16x1_d0_w32 broadcasts_S16x1_S16x16384 broadcasts_S1x16384_S16x16384 (minimumf (broadcast S1x16384 (Scalar.ofBits (F := Ideal) .f32 0x41700000#32)) (maximumf (broadcast S1x16384 (Scalar.ofBits (F := Ideal) .f32 0x00000000#32)) (mulf (mulf (addf (extractStridedSlice S1x16384 ![1, 0] v3 slices_S3x16384_o1_0_S1x16384) (broadcast S1x16384 (Scalar.ofBits (F := Ideal) .f32 0x3F800000#32))) (broadcast S1x16384 (Scalar.ofBits (F := Ideal) .f32 0x3F000000#32))) (broadcast S1x16384 (Scalar.ofBits (F := Ideal) .f32 0x41700000#32)))))) bitsLt_bf16_f32) (constant (F := Ideal) S5x16384 .f32 0x00000000#32) (ix2 r q)) = _
  rw [table_hat_apply, table_hat_apply]
  rfl

/-- Table 3 interpolated and multiplied in; `v80` is coordinate 2 plus one. -/
theorem pay8_apply (v77 : FVec Ideal S5x16384 .f32) (v80 : FVec Ideal S1x16384 .f32) (r : Fin 5) (q : Fin 16384) :
    k0_pay8 (F := Ideal) v77 v80 X5 (ix2 r q)
      = v77 (ix2 r q) * hatSum 16 (fun d => X5 (ix2 r d))
          (min (Ideal.ofBits .f32 0x41700000#32) (max (Ideal.ofBits .f32 0x00000000#32)
            ((v80 (ix2 (0 : Fin 1) q) * Ideal.ofBits .f32 0x3F000000#32) * Ideal.ofBits .f32 0x41700000#32))) := by
  show v77 (ix2 r q) * (FloatOps.matmul (F := Ideal) (DotDims.plain 5 16 16384) none (truncf .bf16 X5 bitsLt_bf16_f32)
        (truncf .bf16 (hatMatrix 16 iota_S16x1_d0_w32 broadcasts_S16x1_S16x16384 broadcasts_S1x16384_S16x16384 (minimumf (broadcast S1x16384 (Scalar.ofBits (F := Ideal) .f32 0x41700000#32)) (maximumf (broadcast S1x16384 (Scalar.ofBits (F := Ideal) .f32 0x00000000#32)) (mulf (mulf v80 (broadcast S1x16384 (Scalar.ofBits (F := Ideal) .f32 0x3F000000#32))) (broadcast S1x16384 (Scalar.ofBits (F := Ideal) .f32 0x41700000#32)))))) bitsLt_bf16_f32) (constant (F := Ideal) S5x16384 .f32 0x00000000#32) (ix2 r q)) = _
  rw [table_hat_apply]
  rfl

/-- The hat weights of the grey level. -/
theorem pay9_eq (v26 : FVec Ideal S1x16384 .f32) :
    k0_pay9 (F := Ideal) v26 = hatMatrix 16 iota_S16x1_d0_w32 broadcasts_S16x1_S16x16384 broadcasts_S1x16384_S16x16384 (minimumf (broadcast S1x16384 (Scalar.ofBits (F := Ideal) .f32 0x41700000#32)) (maximumf (broadcast S1x16384 (Scalar.ofBits (F := Ideal) .f32 0x00000000#32)) (mulf (mulf (addf v26 (broadcast S1x16384 (Scalar.ofBits (F := Ideal) .f32 0x3F800000#32))) (broadcast S1x16384 (Scalar.ofBits (F := Ideal) .f32 0x3F000000#32))) (broadcast S1x16384 (Scalar.ofBits (F := Ideal) .f32 0x41700000#32))))) := rfl

/-- Table 4 interpolated and multiplied in, then the projection by the last table. -/
theorem pay1_apply (v103 : FVec Ideal S5x16384 .f32) (pos : FVec Ideal S1x16384 .f32) (j : Fin 12) (q : Fin 16384) :
    k0_pay1 (F := Ideal) v103 (hatMatrix 16 iota_S16x1_d0_w32 broadcasts_S16x1_S16x16384 broadcasts_S1x16384_S16x16384 pos) X6 X2 (ix2 j q)
      = ∑ r : Fin 5, X2 (ix2 j r) * (v103 (ix2 r q) * hatSum 16 (fun d => X6 (ix2 r d)) (pos (ix2 (0 : Fin 1) q))) := by
  show FloatOps.matmul (F := Ideal) (DotDims.plain 12 5 16384) none (truncf .bf16 X2 bitsLt_bf16_f32)
      (truncf .bf16 (mulf v103 (FloatOps.matmul (F := Ideal) (DotDims.plain 5 16 16384) none (truncf .bf16 X6 bitsLt_bf16_f32)
        (truncf .bf16 (hatMatrix 16 iota_S16x1_d0_w32 broadcasts_S16x1_S16x16384 broadcasts_S1x16384_S16x16384 pos) bitsLt_bf16_f32) (constant (F := Ideal) S5x16384 .f32 0x00000000#32))) bitsLt_bf16_f32)
      (constant (F := Ideal) S12x16384 .f32 0x00000000#32) (ix2 j q) = _
  rw [matmul_zero_apply]
  refine Finset.sum_congr rfl fun r _ => ?_
  rw [truncf_apply, truncf_apply]
  show _ * (_ * FloatOps.matmul (F := Ideal) (DotDims.plain 5 16 16384) none (truncf .bf16 X6 bitsLt_bf16_f32)
    (truncf .bf16 (hatMatrix 16 iota_S16x1_d0_w32 broadcasts_S16x1_S16x16384 broadcasts_S1x16384_S16x16384 pos) bitsLt_bf16_f32) (constant (F := Ideal) S5x16384 .f32 0x00000000#32) (ix2 r q)) = _
  rw [table_hat_apply]

/-- THE STORED BLOCK, entry (j, q): the specification's scalar formulas over the blocks' rows and columns. -/
theorem payload_apply (j : Fin 12) (q : Fin 16384) :
    k0_pay1 (F := Ideal)
        (k0_pay8 (k0_pay6 (k0_pay2 X0) (k0_pay4 X0) k0_pay5 X3 X4) (k0_pay7 (k0_pay2 X0)) X5)
        (k0_pay9 (k0_pay3 X1 X7 X8 X9 X10)) X6 X2 (ix2 j q)
      = outS (fun r => X2 (ix2 j r)) (fun r =>
          coefS (fun d => X3 (ix2 r d)) (fun d => X4 (ix2 r d)) (fun d => X5 (ix2 r d)) (fun d => X6 (ix2 r d))
            (X0 (ix2 (0 : Fin 3) q)) (X0 (ix2 (1 : Fin 3) q)) (X0 (ix2 (2 : Fin 3) q))
            (grayS (fun k => X9 (ix2 (0 : Fin 1) k))
              (fun k => hiddenS (fun c => X7 (ix2 k c)) (fun c => X1 (ix2 c q)) (X8 (ix2 k (0 : Fin 1))))
              (X10 (ix2 (0 : Fin 1) (0 : Fin 1))))) := by
  rw [pay9_eq, pay1_apply]
  unfold outS coefS
  refine Finset.sum_congr rfl fun r _ => ?_
  rw [pay8_apply, pay6_apply, pos0_apply]
  have h1 : extractStridedSlice S1x16384 ![1, 0] (k0_pay2 (F := Ideal) X0) slices_S3x16384_o1_0_S1x16384 (ix2 (0 : Fin 1) q)
      = X0 (ix2 (1 : Fin 3) q) * Ideal.ofBits .f32 0x3F000000#32 := coordRow_apply X0 (1 : Fin 3) _ q
  have h2 : k0_pay7 (F := Ideal) (k0_pay2 X0) (ix2 (0 : Fin 1) q)
      = X0 (ix2 (2 : Fin 3) q) * Ideal.ofBits .f32 0x3F000000#32 + Ideal.ofBits .f32 0x3F800000#32 := by
    show extractStridedSlice S1x16384 ![(2 : Fin 3).val, 0] (k0_pay2 (F := Ideal) X0) slices_S3x16384_o2_0_S1x16384
      (ix2 (0 : Fin 1) q) + _ = _
    rw [coordRow_apply]
    rfl
  rw [h1, h2]
  show _ * (_ * hatSum 16 _ (gpos _ (k0_pay3 (F := Ideal) X1 X7 X8 X9 X10 (ix2 (0 : Fin 1) q)))) = _
  rw [pay3_apply]
  rfl

end Cert.Bilateral.KernelBlock

end
-- ==== Proof.KernelArray.lean ====
/-
  The kernel's result array, and the program's result.

  The region runs over 256 grid points; point t stages columns t·16384 … t·16384 + 16383 of the transposed coordinate
  and colour arrays, the small tables whole, and writes back the same columns of the [12, 4194304] output. What a point
  writes back is therefore a block of ONE function of the arguments (the projected coefficients, transposed), every
  column lies in exactly one point's block, and so the array ends holding that function. The two host lines after the
  region transpose it back and reshape it to [4194304, 3, 4].
-/
import proofs.«121849_j48765058679256_2_alg».proof.Proof.Gen.KernelIdeal.Frame
import proofs.«121849_j48765058679256_2_alg».proof.Proof.KernelBlock
import Idealize.ShloMosaic.Lib.Pipeline.Value
import Idealize.ShloMosaic.Lib.StableHlo.Run

noncomputable section

namespace Cert.Bilateral.KernelArray

open Idealize.ShloMosaic Idealize.ShloMosaic.TcCoe Idealize.SL.Sem Idealize.ShloMosaic.ValueIdx
open Cert.KernelIdeal Cert.KernelIdeal.Gen Cert.Bilateral

variable (m : (ℓ : Loc nD τ sig) → Buf (Elt Ideal) ℓ) (ρ : Dev nD → PrngReg)

/-- The output array as a function of the arguments: entry (j, n) is entry j of point n's projected coefficients. -/
def GT (c : Dev nD) : S12x4194304.Idx → EReal := fun i =>
  out12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)

/-! ## The arrays the region finds -/

theorem V_v0 (c : Dev nD) : (V m c main_v0 : S3x4194304.Idx → EReal)
    = transpose S3x4194304 [1, 0] (m ((c : Thread nD τ).loc main_arg0)) transposes_S4194304x3_S3x4194304_1_0 := by
  show StableHlo.after hostOps0 (fun b => m (c, b)) (Proc.devRef .tc main_v0) = _
  after_results <;> rfl

theorem V_v1 (c : Dev nD) : (V m c main_v1 : S3x4194304.Idx → EReal)
    = transpose S3x4194304 [1, 0] (m ((c : Thread nD τ).loc main_arg1)) transposes_S4194304x3_S3x4194304_1_0 := by
  show StableHlo.after hostOps0 (fun b => m (c, b)) (Proc.devRef .tc main_v1) = _
  after_results <;> rfl

theorem V_v2 (c : Dev nD) : (V m c main_v2 : S8x1.Idx → EReal)
    = shapeCast S8x1 (m ((c : Thread nD τ).loc main_arg8)) shapeCasts_S8_S8x1 := by
  show StableHlo.after hostOps0 (fun b => m (c, b)) (Proc.devRef .tc main_v2) = _
  after_results <;> rfl

theorem V_v3 (c : Dev nD) : (V m c main_v3 : S1x1.Idx → EReal)
    = shapeCast S1x1 (m ((c : Thread nD τ).loc main_arg10)) shapeCasts_S1_S1x1 := by
  show StableHlo.after hostOps0 (fun b => m (c, b)) (Proc.devRef .tc main_v3) = _
  after_results <;> rfl

/-! ## The printed index maps -/

theorem hz : (![0, 0] : Fin 2 → Nat) = fun _ => 0 := funext fun a => by fin_cases a <;> rfl

/-- Decided over the 256 points: the two point-wise inputs and the output move along the columns with the point;
    every table's block index is zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = t.val :=
  (by decide +kernel : ∀ t : Fin grid0.N, _)

theorem col_lt (t : Fin cfg0.N) (q : Fin 16384) : t.val * 16384 + q.val < 4194304 := by
  have ht : t.val < 256 := lt_of_lt_of_eq t.isLt N_0
  have hq := q.isLt
  omega

/-! ## The blocks, read where the point's rectangle says -/

/-- A row of the transposed coordinates' block is a column of the coordinate array. -/
theorem blk0 (c : Dev nD) (t : Fin cfg0.N) (a : Fin 3) (q : Fin 16384) :
    iblk m c 0 t (ix2 a q) = (m ((c : Thread nD τ).loc main_arg0)) (ix2 ⟨t.val * 16384 + q.val, col_lt t q⟩ a) := by
  obtain ⟨e0, e1, -⟩ := idx_facts t
  show V m c main_v0 (((cfg0.win 0).blk t).view.emb (ix2 a q)) = _
  have he : ((cfg0.win 0).blk t).view.emb (ix2 a q) = ix2 a (⟨t.val * 16384 + q.val, col_lt t q⟩ : Fin 4194304) := by
    funext ax; apply Fin.ext
    match ax with
    | ⟨0, _⟩ => show win0_0.index t (0 : Fin 2) * 3 + 1 * a.val = a.val; omega
    | ⟨1, _⟩ => show win0_0.index t (1 : Fin 2) * 16384 + 1 * q.val = t.val * 16384 + q.val; omega
  rw [he, V_v0]
  exact transpose_ix2_apply _ _ _ _

/-- The same for the colours. -/
theorem blk1 (c : Dev nD) (t : Fin cfg0.N) (a : Fin 3) (q : Fin 16384) :
    iblk m c 1 t (ix2 a q) = (m ((c : Thread nD τ).loc main_arg1)) (ix2 ⟨t.val * 16384 + q.val, col_lt t q⟩ a) := by
  obtain ⟨-, -, e0, e1, -⟩ := idx_facts t
  show V m c main_v1 (((cfg0.win 1).blk t).view.emb (ix2 a q)) = _
  have he : ((cfg0.win 1).blk t).view.emb (ix2 a q) = ix2 a (⟨t.val * 16384 + q.val, col_lt t q⟩ : Fin 4194304) := by
    funext ax; apply Fin.ext
    match ax with
    | ⟨0, _⟩ => show win0_1.index t (0 : Fin 2) * 3 + 1 * a.val = a.val; omega
    | ⟨1, _⟩ => show win0_1.index t (1 : Fin 2) * 16384 + 1 * q.val = t.val * 16384 + q.val; omega
  rw [he, V_v1]
  exact transpose_ix2_apply _ _ _ _

/-- Window 2 stages its table whole at every point. -/
theorem blk2 (c : Dev nD) (t : Fin cfg0.N) (a : Fin 12) (b : Fin 5) :
    iblk m c 2 t (ix2 a b) = (m ((c : Thread nD τ).loc main_arg2)) (ix2 a b) := by
  obtain ⟨-, -, -, -, e0, e1, -⟩ := idx_facts t
  show V m c main_arg2 (((cfg0.win 2).blk t).view.emb (ix2 a b)) = _
  have he : ((cfg0.win 2).blk t).view.emb (ix2 a b) = ix2 a b := by
    funext ax; apply Fin.ext
    match ax with
    | ⟨0, _⟩ => show win0_2.index t (0 : Fin 2) * 12 + 1 * a.val = a.val; omega
    | ⟨1, _⟩ => show win0_2.index t (1 : Fin 2) * 5 + 1 * b.val = b.val; omega
  rw [he, V_main_arg2 m c]

/-- Window 3 stages its table whole at every point. -/
theorem blk3 (c : Dev nD) (t : Fin cfg0.N) (a : Fin 5) (b : Fin 8) :
    iblk m c 3 t (ix2 a b) = (m ((c : Thread nD τ).loc main_arg3)) (ix2 a b) := by
  obtain ⟨-, -, -, -, -, -, e0, e1, -⟩ := idx_facts t
  show V m c main_arg3 (((cfg0.win 3).blk t).view.emb (ix2 a b)) = _
  have he : ((cfg0.win 3).blk t).view.emb (ix2 a b) = ix2 a b := by
    funext ax; apply Fin.ext
    match ax with
    | ⟨0, _⟩ => show win0_3.index t (0 : Fin 2) * 5 + 1 * a.val = a.val; omega
    | ⟨1, _⟩ => show win0_3.index t (1 : Fin 2) * 8 + 1 * b.val = b.val; omega
  rw [he, V_main_arg3 m c]

/-- Window 4 stages its table whole at every point. -/
theorem blk4 (c : Dev nD) (t : Fin cfg0.N) (a : Fin 5) (b : Fin 16) :
    iblk m c 4 t (ix2 a b) = (m ((c : Thread nD τ).loc main_arg4)) (ix2 a b) := by
  obtain ⟨-, -, -, -, -, -, -, -, e0, e1, -⟩ := idx_facts t
  show V m c main_arg4 (((cfg0.win 4).blk t).view.emb (ix2 a b)) = _
  have he : ((cfg0.win 4).blk t).view.emb (ix2 a b) = ix2 a b := by
    funext ax; apply Fin.ext
    match ax with
    | ⟨0, _⟩ => show win0_4.index t (0 : Fin 2) * 5 + 1 * a.val = a.val; omega
    | ⟨1, _⟩ => show win0_4.index t (1 : Fin 2) * 16 + 1 * b.val = b.val; omega
  rw [he, V_main_arg4 m c]

/-- Window 5 stages its table whole at every point. -/
theorem blk5 (c : Dev nD) (t : Fin cfg0.N) (a : Fin 5) (b : Fin 16) :
    iblk m c 5 t (ix2 a b) = (m ((c : Thread nD τ).loc main_arg5)) (ix2 a b) := by
  obtain ⟨-, -, -, -, -, -, -, -, -, -, e0, e1, -⟩ := idx_facts t
  show V m c main_arg5 (((cfg0.win 5).blk t).view.emb (ix2 a b)) = _
  have he : ((cfg0.win 5).blk t).view.emb (ix2 a b) = ix2 a b := by
    funext ax; apply Fin.ext
    match ax with
    | ⟨0, _⟩ => show win0_5.index t (0 : Fin 2) * 5 + 1 * a.val = a.val; omega
    | ⟨1, _⟩ => show win0_5.index t (1 : Fin 2) * 16 + 1 * b.val = b.val; omega
  rw [he, V_main_arg5 m c]

/-- Window 6 stages its table whole at every point. -/
theorem blk6 (c : Dev nD) (t : Fin cfg0.N) (a : Fin 5) (b : Fin 16) :
    iblk m c 6 t (ix2 a b) = (m ((c : Thread nD τ).loc main_arg6)) (ix2 a b) := by
  obtain ⟨-, -, -, -, -, -, -, -, -, -, -, -, e0, e1, -⟩ := idx_facts t
  show V m c main_arg6 (((cfg0.win 6).blk t).view.emb (ix2 a b)) = _
  have he : ((cfg0.win 6).blk t).view.emb (ix2 a b) = ix2 a b := by
    funext ax; apply Fin.ext
    match ax with
    | ⟨0, _⟩ => show win0_6.index t (0 : Fin 2) * 5 + 1 * a.val = a.val; omega
    | ⟨1, _⟩ => show win0_6.index t (1 : Fin 2) * 16 + 1 * b.val = b.val; omega
  rw [he, V_main_arg6 m c]

/-- Window 7 stages its table whole at every point. -/
theorem blk7 (c : Dev nD) (t : Fin cfg0.N) (a : Fin 8) (b : Fin 3) :
    iblk m c 7 t (ix2 a b) = (m ((c : Thread nD τ).loc main_arg7)) (ix2 a b) := by
  obtain ⟨-, -, -, -, -, -, -, -, -, -, -, -, -, -, e0, e1, -⟩ := idx_facts t
  show V m c main_arg7 (((cfg0.win 7).blk t).view.emb (ix2 a b)) = _
  have he : ((cfg0.win 7).blk t).view.emb (ix2 a b) = ix2 a b := by
    funext ax; apply Fin.ext
    match ax with
    | ⟨0, _⟩ => show win0_7.index t (0 : Fin 2) * 8 + 1 * a.val = a.val; omega
    | ⟨1, _⟩ => show win0_7.index t (1 : Fin 2) * 3 + 1 * b.val = b.val; omega
  rw [he, V_main_arg7 m c]

/-- Window 9 stages its table whole at every point. -/
theorem blk9 (c : Dev nD) (t : Fin cfg0.N) (a : Fin 1) (b : Fin 8) :
    iblk m c 9 t (ix2 a b) = (m ((c : Thread nD τ).loc main_arg9)) (ix2 a b) := by
  obtain ⟨-, -, -, -, -, -, -, -, -, -, -, -, -, -, -, -, -, -, e0, e1, -⟩ := idx_facts t
  show V m c main_arg9 (((cfg0.win 9).blk t).view.emb (ix2 a b)) = _
  have he : ((cfg0.win 9).blk t).view.emb (ix2 a b) = ix2 a b := by
    funext ax; apply Fin.ext
    match ax with
    | ⟨0, _⟩ => show win0_9.index t (0 : Fin 2) * 1 + 1 * a.val = a.val; omega
    | ⟨1, _⟩ => show win0_9.index t (1 : Fin 2) * 8 + 1 * b.val = b.val; omega
  rw [he, V_main_arg9 m c]

/-- The first bias as a column. -/
theorem blk8 (c : Dev nD) (t : Fin cfg0.N) (a : Fin 8) :
    iblk m c 8 t (ix2 a (0 : Fin 1)) = (m ((c : Thread nD τ).loc main_arg8)) (ix1 a) := by
  obtain ⟨-, -, -, -, -, -, -, -, -, -, -, -, -, -, -, -, e0, e1, -⟩ := idx_facts t
  show V m c main_v2 (((cfg0.win 8).blk t).view.emb (ix2 a (0 : Fin 1))) = _
  have he : ((cfg0.win 8).blk t).view.emb (ix2 a (0 : Fin 1)) = ix2 a (0 : Fin 1) := by
    funext ax; apply Fin.ext
    match ax with
    | ⟨0, _⟩ => show win0_8.index t (0 : Fin 2) * 8 + 1 * a.val = a.val; omega
    | ⟨1, _⟩ => show win0_8.index t (1 : Fin 2) * 1 + 1 * 0 = 0; omega
  rw [he, V_v2]
  exact Cert.LibKeepdims.shapeCast_a_a1_apply _ _ a (0 : Fin 1)

/-- The second bias as a one-by-one array. -/
theorem blk10 (c : Dev nD) (t : Fin cfg0.N) :
    iblk m c 10 t (ix2 (0 : Fin 1) (0 : Fin 1)) = (m ((c : Thread nD τ).loc main_arg10)) (ix1 (0 : Fin 1)) := by
  obtain ⟨-, -, -, -, -, -, -, -, -, -, -, -, -, -, -, -, -, -, -, -, e0, e1, -⟩ := idx_facts t
  show V m c main_v3 (((cfg0.win 10).blk t).view.emb (ix2 (0 : Fin 1) (0 : Fin 1))) = _
  have he : ((cfg0.win 10).blk t).view.emb (ix2 (0 : Fin 1) (0 : Fin 1)) = ix2 (0 : Fin 1) (0 : Fin 1) := by
    funext ax; apply Fin.ext
    match ax with
    | ⟨0, _⟩ => show win0_10.index t (0 : Fin 2) * 1 + 1 * 0 = 0; omega
    | ⟨1, _⟩ => show win0_10.index t (1 : Fin 2) * 1 + 1 * 0 = 0; omega
  rw [he, V_v3]
  exact Cert.LibKeepdims.shapeCast_a_a1_apply _ _ (0 : Fin 1) (0 : Fin 1)

/-! ## What a point writes back, the cover, the array -/

/-- WHAT POINT `t` WRITES BACK is block `t` of `GT`. -/
theorem flushed_eq (c : Dev nD) (t : Fin cfg0.N) :
    (dats m 0 c).flushed 11 t = ((cfg0.win 11).blk t).view.read (Elt Ideal) (GT m c) := by
  show (cfg0.win 11).cut (grid0.coords t) ((dats m 0 c).after 11 t) = _
  rw [after0_11]
  unfold out0_11
  rw [View.canon_unit_zero hz]
  simp only [View.ld_unit_zero (S := S3x16384) hz, View.ld_unit_zero (S := S12x5) hz, View.ld_unit_zero (S := S5x8) hz, View.ld_unit_zero (S := S5x16) hz, View.ld_unit_zero (S := S8x3) hz, View.ld_unit_zero (S := S8x1) hz, View.ld_unit_zero (S := S1x8) hz, View.ld_unit_zero (S := S1x1) hz]
  funext y
  obtain ⟨j, q, rfl⟩ : ∃ (j : Fin 12) (q : Fin 16384), y = ix2 j q := ⟨y 0, y 1, eq_ix2 y⟩
  refine (KernelBlock.payload_apply (iblk m c 0 t) (iblk m c 1 t) (iblk m c 2 t) (iblk m c 3 t) (iblk m c 4 t)
    (iblk m c 5 t) (iblk m c 6 t) (iblk m c 7 t) (iblk m c 8 t) (iblk m c 9 t) (iblk m c 10 t) j q).trans ?_
  obtain ⟨-, -, -, -, -, -, -, -, -, -, -, -, -, -, -, -, -, -, -, -, -, -, e0, e1⟩ := idx_facts t
  have he : ((cfg0.win 11).blk t).view.emb (ix2 j q) = ix2 j (⟨t.val * 16384 + q.val, col_lt t q⟩ : Fin 4194304) := by
    funext ax; apply Fin.ext
    match ax with
    | ⟨0, _⟩ => show win0_11.index t (0 : Fin 2) * 12 + 1 * j.val = j.val; omega
    | ⟨1, _⟩ => show win0_11.index t (1 : Fin 2) * 16384 + 1 * q.val = t.val * 16384 + q.val; omega
  show _ = GT m c (((cfg0.win 11).blk t).view.emb (ix2 j q))
  rw [he]
  simp only [blk0, blk1, blk2, blk3, blk4, blk5, blk6, blk7, blk8, blk9, blk10]
  rfl

/-- An index of the output array is in point `t`'s block iff each coordinate is in the block's range on its axis. -/
theorem mem_blk (t : Fin cfg0.N) (i : S12x4194304.Idx) :
    i ∈ ((cfg0.win 11).blk t).view.set ↔ ∀ a : Fin 2, win0_11.index t a * S12x16384.size a ≤ (i a).val
      ∧ (i a).val < win0_11.index t a * S12x16384.size a + S12x16384.size a := by
  show i ∈ ((View.whole main_v4).slice (win0_11.rect t)).set ↔ _
  rw [View.set_slice_whole, Rect.mem_set_unit]
  exact Iff.rfl

/-- Every column belongs to the point that stages it. -/
theorem cover (i : S12x4194304.Idx) :
    ∃ t : Fin cfg0.N, (cfg0.win 11).flush t = true ∧ i ∈ ((cfg0.win 11).blk t).view.set := by
  have hi0 : (i 0).val < 12 := (i 0).isLt
  have hi1 : (i 1).val < 4194304 := (i 1).isLt
  have hN : cfg0.N = 256 := N_0
  refine ⟨⟨(i 1).val / 16384, by rw [hN]; omega⟩, flush0_11 _, ?_⟩
  rw [mem_blk]
  obtain ⟨-, -, -, -, -, -, -, -, -, -, -, -, -, -, -, -, -, -, -, -, -, -, e0, e1⟩ :=
    idx_facts ⟨(i 1).val / 16384, by rw [hN]; omega⟩
  intro a
  match a with
  | ⟨0, _⟩ =>
    show win0_11.index _ (0 : Fin 2) * 12 ≤ (i 0).val ∧ (i 0).val < win0_11.index _ (0 : Fin 2) * 12 + 12
    rw [e0]; omega
  | ⟨1, _⟩ =>
    show win0_11.index _ (1 : Fin 2) * 16384 ≤ (i 1).val ∧ (i 1).val < win0_11.index _ (1 : Fin 2) * 16384 + 16384
    rw [e1]; show (i 1).val / 16384 * 16384 ≤ _ ∧ _ < (i 1).val / 16384 * 16384 + 16384; omega

/-- THE OUTPUT ARRAY after the region. -/
theorem final (c : Dev nD) : (dats m 0 c).arrAt 11 cfg0.N = GT m c :=
  (dats m 0 c).arrAt_eq_of_cover 11 (GT m c) (fun t _ => flushed_eq m c t) cover

end Cert.Bilateral.KernelArray

end
-- ==== Proof.KernelRun.lean ====
/-
  The kernel program's run, with its result named.

  After the region the output array holds the projected coefficients transposed; the two host lines transpose it back
  to [4194304, 12] and reshape it to [4194304, 3, 4], so the entry at row-major position p of the result is entry
  (p mod 12, p div 12) of the output array: the specification. The arguments end as they began.
-/
import proofs.«121849_j48765058679256_2_alg».proof.Proof.KernelArray

noncomputable section

namespace Cert.Bilateral.KernelRun

open Idealize.ShloMosaic Idealize.ShloMosaic.TcCoe Idealize.SL.Sem Idealize.ShloMosaic.ValueIdx
open Cert.KernelIdeal Cert.KernelIdeal.Gen Cert.Bilateral Cert.Bilateral.KernelArray

variable (m : (ℓ : Loc nD τ sig) → Buf (Elt Ideal) ℓ) (ρ : Dev nD → PrngReg)

/-- A [12, N] array transposed and reshaped to [N, 3, 4], read at an index. -/
theorem tail_layout (A : S12x4194304.Idx → EReal) (i : S4194304x3x4.Idx) :
    shapeCast S4194304x3x4 (transpose S4194304x12 [1, 0] A transposes_S12x4194304_S4194304x12_1_0)
        shapeCasts_S4194304x12_S4194304x3x4 i
      = A (ix2 (⟨flatPos i % 12, flatPos_mod_lt i⟩ : Fin 12) (⟨flatPos i / 12, flatPos_div_lt i⟩ : Fin 4194304)) := by
  rw [shapeCast_apply _ _ i (ix2 (⟨flatPos i / 12, flatPos_div_lt i⟩ : Fin 4194304) (⟨flatPos i % 12, flatPos_mod_lt i⟩ : Fin 12)) (by
    rewrite [Shape.rowMajor_val_two, Shape.rowMajor_val_three]
    show flatPos i / 12 * 12 + flatPos i % 12 = ((i 0).val * 3 + (i 1).val) * 4 + (i 2).val
    unfold flatPos; omega)]
  exact transpose_ix2_apply _ _ _ _

/-- The program's result buffer after the host lines that follow the region. -/
theorem tail_eq (c : Dev nD) :
    Pipeline.afterTail₀ cfgs (dats m) 0 (V0 m) [hostOps1] c main_v6
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v4) = GT m c :=
    (Pipeline.withArrays_arr spec0 launch0.win.arr_inj c _ _ 11).trans (final m c)
  funext i
  show shapeCast S4194304x3x4 (transpose S4194304x12 [1, 0]
    (Pipeline.withArrays (cfgs 0).spec c (V0 m c) (fun w => (dats m 0 c).arrAt w (cfgs 0).N) (Proc.devRef .tc main_v4))
    transposes_S12x4194304_S4194304x12_1_0) shapeCasts_S4194304x12_S4194304x3x4 i = _
  rw [hw, tail_layout]
  rfl

/-- THE KERNEL PROGRAM'S RUN: every weakly fair execution terminates with the result buffer at the specification of
    the arguments, and the arguments unchanged. -/
theorem run : θ_run defs (onTc (τ := τ) (main (F := Ideal))) ⟨m, fun _ => 0, ρ⟩ (fun r => ∀ c : Dev nD,
      r.2.mem ((c.tc : Thread nD τ).loc main_v6) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans ((((dats m) 0 c).arrAt_in 9 rfl _).trans ((A_eq m c 9).trans (V_main_arg9 m c))),
      ((h c).2 main_arg10 (Pipeline.mem_restRefs_of main_arg10 (by decide) (by decide))).trans (W_main_arg10 m (dats m) c)⟩)
    (run_main m ρ)

end Cert.Bilateral.KernelRun

end
-- ==== Proof.RefStages.lean ====
/-
  The reference, stage by stage, in the words of the specification.

  Its operations are read at an index one group at a time: the halved coordinates and the grey level moved onto their
  grids; each table looked up at the two nodes around a position and weighted (the two-node interpolation, whose
  column numbers come from a floor, a conversion to a 32-bit integer, a clamp and a wrap); the product of the four
  interpolated rows; the projection by the last table and the final reshape.
-/
import proofs.«121849_j48765058679256_2_alg».proof.Proof.Gen.ReferenceIdeal.Read
import proofs.«121849_j48765058679256_2_alg».proof.Proof.Spec

noncomputable section

namespace Cert.Bilateral.RefStages

open Idealize.ShloMosaic Idealize.ShloMosaic.ValueIdx Idealize.ShloMosaic.ColGather
open Cert.ReferenceIdeal Cert.ReferenceIdeal.Read Cert.Bilateral

/-- Two rank-1 indices are equal when their coordinates are (a reshape's coordinate is a quotient by one). -/
macro "idx_eq1" : tactic => `(tactic| (funext a; refine Fin.ext ?_; match a with
  | ⟨0, _⟩ => (first | rfl | exact Nat.div_one _)))
/-- The same at rank 2. -/
macro "idx_eq2" : tactic => `(tactic| (funext a; refine Fin.ext ?_; match a with
  | ⟨0, _⟩ => (first | rfl | exact Nat.div_one _)
  | ⟨1, _⟩ => (first | rfl | exact Nat.div_one _)))

variable (x0 x1 : (⟨S4194304x3, .f32⟩ : BufTy).Contents (Elt Ideal)) (x2 : (⟨S12x5, .f32⟩ : BufTy).Contents (Elt Ideal))
  (x3 : (⟨S5x8, .f32⟩ : BufTy).Contents (Elt Ideal)) (x4 x5 x6 : (⟨S5x16, .f32⟩ : BufTy).Contents (Elt Ideal))
  (x7 : (⟨S8x3, .f32⟩ : BufTy).Contents (Elt Ideal)) (x8 : (⟨S8, .f32⟩ : BufTy).Contents (Elt Ideal))
  (x9 : (⟨S1x8, .f32⟩ : BufTy).Contents (Elt Ideal)) (x10 : (⟨S1, .f32⟩ : BufTy).Contents (Elt Ideal))

/-! ## The positions on the grids -/

/-- Coordinate 0 of point `n`, halved, on its grid. -/
theorem pos1 (n : Fin 4194304) :
    val_main_v25 (F := Ideal) x0 (ix1 n)
      = gpos (Ideal.ofBits .f32 0x40E00000#32) (x0 (ix2 n (0 : Fin 3)) * Ideal.ofBits .f32 0x3F000000#32) := by
  have e : idx_main_v17 (idx_main_v18 (ix1 n)) = ix2 n (0 : Fin 3) := by idx_eq2
  simp only [val_main_v17_apply, val_main_v18_apply, val_main_cst_1_apply, val_main_v19_apply, val_main_v20_apply, val_main_cst_2_apply, val_main_v21_apply, val_main_v22_apply, val_main_cst_3_apply, val_main_v23_apply, val_main_v24_apply, val_main_cst_4_apply, val_main_cst_5_apply, val_main_call1_v0_apply, val_main_call1_v1_apply, val_main_call1_v2_apply, val_main_call1_v3_apply, val_main_call1_v4_apply, val_main_v25_apply, val_main_cst_apply, val_main_v0_apply, val_main_v1_apply]
  rw [e]
  exact congrArg (gpos _) (div_two_eq_mul_half _)

/-- Coordinate 1 of point `n`, halved, on its grid. -/
theorem pos2 (n : Fin 4194304) :
    val_main_v64 (F := Ideal) x0 (ix1 n)
      = gpos (Ideal.ofBits .f32 0x41700000#32) (x0 (ix2 n (1 : Fin 3)) * Ideal.ofBits .f32 0x3F000000#32) := by
  have e : idx_main_v56 (idx_main_v57 (ix1 n)) = ix2 n (1 : Fin 3) := by idx_eq2
  simp only [val_main_v56_apply, val_main_v57_apply, val_main_cst_13_apply, val_main_v58_apply, val_main_v59_apply, val_main_cst_14_apply, val_main_v60_apply, val_main_v61_apply, val_main_cst_15_apply, val_main_v62_apply, val_main_v63_apply, val_main_cst_16_apply, val_main_cst_17_apply, val_main_call3_v0_apply, val_main_call3_v1_apply, val_main_call3_v2_apply, val_main_call3_v3_apply, val_main_call3_v4_apply, val_main_v64_apply, val_main_cst_apply, val_main_v0_apply, val_main_v1_apply]
  rw [e]
  exact congrArg (gpos _) (div_two_eq_mul_half _)

/-- Coordinate 2 of point `n`, halved, on its grid. -/
theorem pos3 (n : Fin 4194304) :
    val_main_v104 (F := Ideal) x0 (ix1 n)
      = gpos (Ideal.ofBits .f32 0x41700000#32) (x0 (ix2 n (2 : Fin 3)) * Ideal.ofBits .f32 0x3F000000#32) := by
  have e : idx_main_v96 (idx_main_v97 (ix1 n)) = ix2 n (2 : Fin 3) := by idx_eq2
  simp only [val_main_v96_apply, val_main_v97_apply, val_main_cst_26_apply, val_main_v98_apply, val_main_v99_apply, val_main_cst_27_apply, val_main_v100_apply, val_main_v101_apply, val_main_cst_28_apply, val_main_v102_apply, val_main_v103_apply, val_main_cst_29_apply, val_main_cst_30_apply, val_main_call5_v0_apply, val_main_call5_v1_apply, val_main_call5_v2_apply, val_main_call5_v3_apply, val_main_call5_v4_apply, val_main_v104_apply, val_main_cst_apply, val_main_v0_apply, val_main_v1_apply]
  rw [e]
  exact congrArg (gpos _) (div_two_eq_mul_half _)

/-! ## The grey level -/

/-- The grey level of point `n`: the reference multiplies colour by weight, the specification weight by colour. -/
theorem gray_eq (n : Fin 4194304) :
    val_main_v16 (F := Ideal) x1 x7 x8 x9 x10 (ix1 n) = gray x1 x7 x8 x9 x10 n := by
  have e1 : ∀ (k : Fin 8) (c : Fin 3), lidx_main_v3 (lidx_main_v9 (idx_main_v16 (ix1 n)) k) c = ix2 n c :=
    fun k c => by idx_eq2
  have e7 : ∀ (k : Fin 8) (c : Fin 3),
      idx_main_v2 (ridx_main_v3 (lidx_main_v9 (idx_main_v16 (ix1 n)) k) c) = ix2 k c := fun k c => by idx_eq2
  have e8 : ∀ k : Fin 8, idx_main_v4 (idx_main_v5 (lidx_main_v9 (idx_main_v16 (ix1 n)) k)) = ix1 k := fun k => by idx_eq1
  have e9 : ∀ k : Fin 8, idx_main_v8 (ridx_main_v9 (idx_main_v16 (ix1 n)) k) = ix2 (0 : Fin 1) k := fun k => by idx_eq2
  have e10 : idx_main_v10 (idx_main_v11 (idx_main_v16 (ix1 n))) = ix1 (0 : Fin 1) := by idx_eq1
  simp only [val_main_v2_apply, val_main_v3_apply, val_main_v4_apply, val_main_v5_apply, val_main_v6_apply, val_main_call0_cst_apply, val_main_call0_v0_apply, val_main_v7_apply, val_main_v8_apply, val_main_v9_apply, val_main_v10_apply, val_main_v11_apply, val_main_v12_apply, val_main_cst_0_apply, val_main_v13_apply, val_main_v14_apply, val_main_v15_apply, val_main_v16_apply]
  simp only [e1, e7, e8, e9, e10]
  unfold gray grayS hiddenS
  show Ideal.tanh (_ * (_ + _)) = Ideal.tanh (_ * (_ + _))
  congr 3
  refine Finset.sum_congr rfl fun k _ => ?_
  rw [mul_comm]
  congr 1
  show max (_ + _) _ = max (_ + _) _
  congr 2
  exact Finset.sum_congr rfl fun c _ => mul_comm _ _

/-- The grey level on its grid. -/
theorem pos4 (n : Fin 4194304) :
    val_main_v142 (F := Ideal) x1 x7 x8 x9 x10 (ix1 n)
      = gpos (Ideal.ofBits .f32 0x41700000#32) (gray x1 x7 x8 x9 x10 n) := by
  rw [← gray_eq]
  simp only [val_main_cst_39_apply, val_main_v136_apply, val_main_v137_apply, val_main_cst_40_apply, val_main_v138_apply, val_main_v139_apply, val_main_cst_41_apply, val_main_v140_apply, val_main_v141_apply, val_main_cst_42_apply, val_main_cst_43_apply, val_main_call7_v0_apply, val_main_call7_v1_apply, val_main_call7_v2_apply, val_main_call7_v3_apply, val_main_call7_v4_apply, val_main_v142_apply]
  rfl

/-! ## The two-node interpolations -/

/-- Table 1, the lower node's column. -/
theorem gatherLo1 (r : Fin 5) (n : Fin 4194304) :
    val_main_v37 (F := Ideal) x0 x3 (ix2 r n)
      = x3 (ix2 r (colOf (D := 8) (by decide)
          (wrapWord 8#32 (nodeWord 6#32 (val_main_v25 (F := Ideal) x0 (ix1 n)))))) := by
  have e : idx_main_v36 (ix2 n (0 : Fin 1)) = ix1 n := by idx_eq1
  unfold val_main_v37
  refine (colGather_apply (R := 5) (D := 8) (E := 4194304) (by decide) _ x3 _ r n).trans ?_
  simp only [val_main_v26_apply, val_main_v27_apply, val_main_c_apply, val_main_c_6_apply, val_main_call2_v0_apply, val_main_call2_v1_apply, val_main_call2_v2_apply, val_main_call2_v3_apply, val_main_call2_v4_apply, val_main_v28_apply, val_main_v29_apply, val_main_v30_apply, val_main_c_7_apply, val_main_v31_apply, val_main_v32_apply, val_main_c_8_apply, val_main_v33_apply, val_main_v34_apply, val_main_v35_apply, val_main_v36_apply]
  rw [e]
  rfl

/-- Table 1, the upper node's column. -/
theorem gatherHi1 (r : Fin 5) (n : Fin 4194304) :
    val_main_v51 (F := Ideal) x0 x3 (ix2 r n)
      = x3 (ix2 r (colOf (D := 8) (by decide)
          (wrapWord 8#32 (IntOp.addi (nodeWord 6#32 (val_main_v25 (F := Ideal) x0 (ix1 n))) 1#32)))) := by
  have e : idx_main_v50 (ix2 n (0 : Fin 1)) = ix1 n := by idx_eq1
  unfold val_main_v51
  refine (colGather_apply (R := 5) (D := 8) (E := 4194304) (by decide) _ x3 _ r n).trans ?_
  simp only [val_main_v26_apply, val_main_v27_apply, val_main_c_apply, val_main_c_6_apply, val_main_call2_v0_apply, val_main_call2_v1_apply, val_main_call2_v2_apply, val_main_call2_v3_apply, val_main_call2_v4_apply, val_main_v28_apply, val_main_v29_apply, val_main_v30_apply, val_main_c_7_apply, val_main_v31_apply, val_main_v32_apply, val_main_c_8_apply, val_main_v33_apply, val_main_v34_apply, val_main_v35_apply, val_main_v36_apply, val_main_cst_9_apply, val_main_v38_apply, val_main_v39_apply, val_main_v40_apply, val_main_v41_apply, val_main_v42_apply, val_main_c_10_apply, val_main_v43_apply, val_main_v44_apply, val_main_c_11_apply, val_main_v45_apply, val_main_v46_apply, val_main_c_12_apply, val_main_v47_apply, val_main_v48_apply, val_main_v49_apply, val_main_v50_apply]
  rw [e]
  rfl

/-- Table 1 interpolated at the position of point `n`, row `r`. -/
theorem interp1 (r : Fin 5) (n : Fin 4194304) :
    val_main_v55 (F := Ideal) x0 x3 (ix2 r n)
      = interpRef (D := 8) (by decide) 6#32 8#32 (fun d => x3 (ix2 r d))
          (val_main_v25 (F := Ideal) x0 (ix1 n)) := by
  have e1 : idx_main_v40 (idx_main_v41 (ix2 r n)) = ix1 n := by idx_eq1
  have e2 : idx_main_v52 (idx_main_v53 (ix2 r n)) = ix1 n := by idx_eq1
  simp only [val_main_v26_apply, val_main_v27_apply, val_main_c_apply, val_main_c_6_apply, val_main_call2_v0_apply, val_main_call2_v1_apply, val_main_call2_v2_apply, val_main_call2_v3_apply, val_main_call2_v4_apply, val_main_v28_apply, val_main_v29_apply, val_main_v30_apply, val_main_c_7_apply, val_main_v31_apply, val_main_v32_apply, val_main_c_8_apply, val_main_v33_apply, val_main_v34_apply, val_main_v35_apply, val_main_v36_apply, val_main_cst_9_apply, val_main_v38_apply, val_main_v39_apply, val_main_v40_apply, val_main_v41_apply, val_main_v42_apply, val_main_c_10_apply, val_main_v43_apply, val_main_v44_apply, val_main_c_11_apply, val_main_v45_apply, val_main_v46_apply, val_main_c_12_apply, val_main_v47_apply, val_main_v48_apply, val_main_v49_apply, val_main_v50_apply, val_main_v52_apply, val_main_v53_apply, val_main_v54_apply, val_main_v55_apply]
  rw [gatherLo1, gatherHi1, e1, e2]
  rfl

/-- Table 2, the lower node's column. -/
theorem gatherLo2 (r : Fin 5) (n : Fin 4194304) :
    val_main_v76 (F := Ideal) x0 x4 (ix2 r n)
      = x4 (ix2 r (colOf (D := 16) (by decide)
          (wrapWord 16#32 (nodeWord 14#32 (val_main_v64 (F := Ideal) x0 (ix1 n)))))) := by
  have e : idx_main_v75 (ix2 n (0 : Fin 1)) = ix1 n := by idx_eq1
  unfold val_main_v76
  refine (colGather_apply (R := 5) (D := 16) (E := 4194304) (by decide) _ x4 _ r n).trans ?_
  simp only [val_main_v65_apply, val_main_v66_apply, val_main_c_18_apply, val_main_c_19_apply, val_main_call4_v0_apply, val_main_call4_v1_apply, val_main_call4_v2_apply, val_main_call4_v3_apply, val_main_call4_v4_apply, val_main_v67_apply, val_main_v68_apply, val_main_v69_apply, val_main_c_20_apply, val_main_v70_apply, val_main_v71_apply, val_main_c_21_apply, val_main_v72_apply, val_main_v73_apply, val_main_v74_apply, val_main_v75_apply]
  rw [e]
  rfl

/-- Table 2, the upper node's column. -/
theorem gatherHi2 (r : Fin 5) (n : Fin 4194304) :
    val_main_v90 (F := Ideal) x0 x4 (ix2 r n)
      = x4 (ix2 r (colOf (D := 16) (by decide)
          (wrapWord 16#32 (IntOp.addi (nodeWord 14#32 (val_main_v64 (F := Ideal) x0 (ix1 n))) 1#32)))) := by
  have e : idx_main_v89 (ix2 n (0 : Fin 1)) = ix1 n := by idx_eq1
  unfold val_main_v90
  refine (colGather_apply (R := 5) (D := 16) (E := 4194304) (by decide) _ x4 _ r n).trans ?_
  simp only [val_main_v65_apply, val_main_v66_apply, val_main_c_18_apply, val_main_c_19_apply, val_main_call4_v0_apply, val_main_call4_v1_apply, val_main_call4_v2_apply, val_main_call4_v3_apply, val_main_call4_v4_apply, val_main_v67_apply, val_main_v68_apply, val_main_v69_apply, val_main_c_20_apply, val_main_v70_apply, val_main_v71_apply, val_main_c_21_apply, val_main_v72_apply, val_main_v73_apply, val_main_v74_apply, val_main_v75_apply, val_main_cst_22_apply, val_main_v77_apply, val_main_v78_apply, val_main_v79_apply, val_main_v80_apply, val_main_v81_apply, val_main_c_23_apply, val_main_v82_apply, val_main_v83_apply, val_main_c_24_apply, val_main_v84_apply, val_main_v85_apply, val_main_c_25_apply, val_main_v86_apply, val_main_v87_apply, val_main_v88_apply, val_main_v89_apply]
  rw [e]
  rfl

/-- Table 2 interpolated at the position of point `n`, row `r`. -/
theorem interp2 (r : Fin 5) (n : Fin 4194304) :
    val_main_v94 (F := Ideal) x0 x4 (ix2 r n)
      = interpRef (D := 16) (by decide) 14#32 16#32 (fun d => x4 (ix2 r d))
          (val_main_v64 (F := Ideal) x0 (ix1 n)) := by
  have e1 : idx_main_v79 (idx_main_v80 (ix2 r n)) = ix1 n := by idx_eq1
  have e2 : idx_main_v91 (idx_main_v92 (ix2 r n)) = ix1 n := by idx_eq1
  simp only [val_main_v65_apply, val_main_v66_apply, val_main_c_18_apply, val_main_c_19_apply, val_main_call4_v0_apply, val_main_call4_v1_apply, val_main_call4_v2_apply, val_main_call4_v3_apply, val_main_call4_v4_apply, val_main_v67_apply, val_main_v68_apply, val_main_v69_apply, val_main_c_20_apply, val_main_v70_apply, val_main_v71_apply, val_main_c_21_apply, val_main_v72_apply, val_main_v73_apply, val_main_v74_apply, val_main_v75_apply, val_main_cst_22_apply, val_main_v77_apply, val_main_v78_apply, val_main_v79_apply, val_main_v80_apply, val_main_v81_apply, val_main_c_23_apply, val_main_v82_apply, val_main_v83_apply, val_main_c_24_apply, val_main_v84_apply, val_main_v85_apply, val_main_c_25_apply, val_main_v86_apply, val_main_v87_apply, val_main_v88_apply, val_main_v89_apply, val_main_v91_apply, val_main_v92_apply, val_main_v93_apply, val_main_v94_apply]
  rw [gatherLo2, gatherHi2, e1, e2]
  rfl

/-- Table 3, the lower node's column. -/
theorem gatherLo3 (r : Fin 5) (n : Fin 4194304) :
    val_main_v116 (F := Ideal) x0 x5 (ix2 r n)
      = x5 (ix2 r (colOf (D := 16) (by decide)
          (wrapWord 16#32 (nodeWord 14#32 (val_main_v104 (F := Ideal) x0 (ix1 n)))))) := by
  have e : idx_main_v115 (ix2 n (0 : Fin 1)) = ix1 n := by idx_eq1
  unfold val_main_v116
  refine (colGather_apply (R := 5) (D := 16) (E := 4194304) (by decide) _ x5 _ r n).trans ?_
  simp only [val_main_v105_apply, val_main_v106_apply, val_main_c_31_apply, val_main_c_32_apply, val_main_call6_v0_apply, val_main_call6_v1_apply, val_main_call6_v2_apply, val_main_call6_v3_apply, val_main_call6_v4_apply, val_main_v107_apply, val_main_v108_apply, val_main_v109_apply, val_main_c_33_apply, val_main_v110_apply, val_main_v111_apply, val_main_c_34_apply, val_main_v112_apply, val_main_v113_apply, val_main_v114_apply, val_main_v115_apply]
  rw [e]
  rfl

/-- Table 3, the upper node's column. -/
theorem gatherHi3 (r : Fin 5) (n : Fin 4194304) :
    val_main_v130 (F := Ideal) x0 x5 (ix2 r n)
      = x5 (ix2 r (colOf (D := 16) (by decide)
          (wrapWord 16#32 (IntOp.addi (nodeWord 14#32 (val_main_v104 (F := Ideal) x0 (ix1 n))) 1#32)))) := by
  have e : idx_main_v129 (ix2 n (0 : Fin 1)) = ix1 n := by idx_eq1
  unfold val_main_v130
  refine (colGather_apply (R := 5) (D := 16) (E := 4194304) (by decide) _ x5 _ r n).trans ?_
  simp only [val_main_v105_apply, val_main_v106_apply, val_main_c_31_apply, val_main_c_32_apply, val_main_call6_v0_apply, val_main_call6_v1_apply, val_main_call6_v2_apply, val_main_call6_v3_apply, val_main_call6_v4_apply, val_main_v107_apply, val_main_v108_apply, val_main_v109_apply, val_main_c_33_apply, val_main_v110_apply, val_main_v111_apply, val_main_c_34_apply, val_main_v112_apply, val_main_v113_apply, val_main_v114_apply, val_main_v115_apply, val_main_cst_35_apply, val_main_v117_apply, val_main_v118_apply, val_main_v119_apply, val_main_v120_apply, val_main_v121_apply, val_main_c_36_apply, val_main_v122_apply, val_main_v123_apply, val_main_c_37_apply, val_main_v124_apply, val_main_v125_apply, val_main_c_38_apply, val_main_v126_apply, val_main_v127_apply, val_main_v128_apply, val_main_v129_apply]
  rw [e]
  rfl

/-- Table 3 interpolated at the position of point `n`, row `r`. -/
theorem interp3 (r : Fin 5) (n : Fin 4194304) :
    val_main_v134 (F := Ideal) x0 x5 (ix2 r n)
      = interpRef (D := 16) (by decide) 14#32 16#32 (fun d => x5 (ix2 r d))
          (val_main_v104 (F := Ideal) x0 (ix1 n)) := by
  have e1 : idx_main_v119 (idx_main_v120 (ix2 r n)) = ix1 n := by idx_eq1
  have e2 : idx_main_v131 (idx_main_v132 (ix2 r n)) = ix1 n := by idx_eq1
  simp only [val_main_v105_apply, val_main_v106_apply, val_main_c_31_apply, val_main_c_32_apply, val_main_call6_v0_apply, val_main_call6_v1_apply, val_main_call6_v2_apply, val_main_call6_v3_apply, val_main_call6_v4_apply, val_main_v107_apply, val_main_v108_apply, val_main_v109_apply, val_main_c_33_apply, val_main_v110_apply, val_main_v111_apply, val_main_c_34_apply, val_main_v112_apply, val_main_v113_apply, val_main_v114_apply, val_main_v115_apply, val_main_cst_35_apply, val_main_v117_apply, val_main_v118_apply, val_main_v119_apply, val_main_v120_apply, val_main_v121_apply, val_main_c_36_apply, val_main_v122_apply, val_main_v123_apply, val_main_c_37_apply, val_main_v124_apply, val_main_v125_apply, val_main_c_38_apply, val_main_v126_apply, val_main_v127_apply, val_main_v128_apply, val_main_v129_apply, val_main_v131_apply, val_main_v132_apply, val_main_v133_apply, val_main_v134_apply]
  rw [gatherLo3, gatherHi3, e1, e2]
  rfl

/-- Table 4, the lower node's column. -/
theorem gatherLo4 (r : Fin 5) (n : Fin 4194304) :
    val_main_v154 (F := Ideal) x1 x6 x7 x8 x9 x10 (ix2 r n)
      = x6 (ix2 r (colOf (D := 16) (by decide)
          (wrapWord 16#32 (nodeWord 14#32 (val_main_v142 (F := Ideal) x1 x7 x8 x9 x10 (ix1 n)))))) := by
  have e : idx_main_v153 (ix2 n (0 : Fin 1)) = ix1 n := by idx_eq1
  unfold val_main_v154
  refine (colGather_apply (R := 5) (D := 16) (E := 4194304) (by decide) _ x6 _ r n).trans ?_
  simp only [val_main_v143_apply, val_main_v144_apply, val_main_c_44_apply, val_main_c_45_apply, val_main_call8_v0_apply, val_main_call8_v1_apply, val_main_call8_v2_apply, val_main_call8_v3_apply, val_main_call8_v4_apply, val_main_v145_apply, val_main_v146_apply, val_main_v147_apply, val_main_c_46_apply, val_main_v148_apply, val_main_v149_apply, val_main_c_47_apply, val_main_v150_apply, val_main_v151_apply, val_main_v152_apply, val_main_v153_apply]
  rw [e]
  rfl

/-- Table 4, the upper node's column. -/
theorem gatherHi4 (r : Fin 5) (n : Fin 4194304) :
    val_main_v168 (F := Ideal) x1 x6 x7 x8 x9 x10 (ix2 r n)
      = x6 (ix2 r (colOf (D := 16) (by decide)
          (wrapWord 16#32 (IntOp.addi (nodeWord 14#32 (val_main_v142 (F := Ideal) x1 x7 x8 x9 x10 (ix1 n))) 1#32)))) := by
  have e : idx_main_v167 (ix2 n (0 : Fin 1)) = ix1 n := by idx_eq1
  unfold val_main_v168
  refine (colGather_apply (R := 5) (D := 16) (E := 4194304) (by decide) _ x6 _ r n).trans ?_
  simp only [val_main_v143_apply, val_main_v144_apply, val_main_c_44_apply, val_main_c_45_apply, val_main_call8_v0_apply, val_main_call8_v1_apply, val_main_call8_v2_apply, val_main_call8_v3_apply, val_main_call8_v4_apply, val_main_v145_apply, val_main_v146_apply, val_main_v147_apply, val_main_c_46_apply, val_main_v148_apply, val_main_v149_apply, val_main_c_47_apply, val_main_v150_apply, val_main_v151_apply, val_main_v152_apply, val_main_v153_apply, val_main_cst_48_apply, val_main_v155_apply, val_main_v156_apply, val_main_v157_apply, val_main_v158_apply, val_main_v159_apply, val_main_c_49_apply, val_main_v160_apply, val_main_v161_apply, val_main_c_50_apply, val_main_v162_apply, val_main_v163_apply, val_main_c_51_apply, val_main_v164_apply, val_main_v165_apply, val_main_v166_apply, val_main_v167_apply]
  rw [e]
  rfl

/-- Table 4 interpolated at the position of point `n`, row `r`. -/
theorem interp4 (r : Fin 5) (n : Fin 4194304) :
    val_main_v172 (F := Ideal) x1 x6 x7 x8 x9 x10 (ix2 r n)
      = interpRef (D := 16) (by decide) 14#32 16#32 (fun d => x6 (ix2 r d))
          (val_main_v142 (F := Ideal) x1 x7 x8 x9 x10 (ix1 n)) := by
  have e1 : idx_main_v157 (idx_main_v158 (ix2 r n)) = ix1 n := by idx_eq1
  have e2 : idx_main_v169 (idx_main_v170 (ix2 r n)) = ix1 n := by idx_eq1
  simp only [val_main_v143_apply, val_main_v144_apply, val_main_c_44_apply, val_main_c_45_apply, val_main_call8_v0_apply, val_main_call8_v1_apply, val_main_call8_v2_apply, val_main_call8_v3_apply, val_main_call8_v4_apply, val_main_v145_apply, val_main_v146_apply, val_main_v147_apply, val_main_c_46_apply, val_main_v148_apply, val_main_v149_apply, val_main_c_47_apply, val_main_v150_apply, val_main_v151_apply, val_main_v152_apply, val_main_v153_apply, val_main_cst_48_apply, val_main_v155_apply, val_main_v156_apply, val_main_v157_apply, val_main_v158_apply, val_main_v159_apply, val_main_c_49_apply, val_main_v160_apply, val_main_v161_apply, val_main_c_50_apply, val_main_v162_apply, val_main_v163_apply, val_main_c_51_apply, val_main_v164_apply, val_main_v165_apply, val_main_v166_apply, val_main_v167_apply, val_main_v169_apply, val_main_v170_apply, val_main_v171_apply, val_main_v172_apply]
  rw [gatherLo4, gatherHi4, e1, e2]
  rfl

/-! ## The coefficients, the projection, the result -/

/-- The product of the four interpolated rows is the specification's coefficient. -/
theorem coef_eq (r : Fin 5) (n : Fin 4194304) :
    val_main_v173 (F := Ideal) x0 x1 x3 x4 x5 x6 x7 x8 x9 x10 (ix2 r n) = coef x0 x1 x3 x4 x5 x6 x7 x8 x9 x10 r n := by
  simp only [val_main_v173_apply, val_main_v135_apply, val_main_v95_apply]
  rw [interp1, interp2, interp3, interp4, pos1, pos2, pos3, pos4]
  unfold gpos
  rw [interp_eq8, interp_eq16, interp_eq16, interp_eq16]
  rfl

/-- THE REFERENCE'S RESULT IS THE SPECIFICATION. -/
theorem result_eq :
    val_main_v177 (F := Ideal) x0 x1 x2 x3 x4 x5 x6 x7 x8 x9 x10 = G x0 x1 x2 x3 x4 x5 x6 x7 x8 x9 x10 := by
  funext i
  have e1 : ∀ k : Fin 5, idx_main_v174 (lidx_main_v176 (idx_main_v177 i) k)
      = ix2 k (⟨flatPos i / 12, flatPos_div_lt i⟩ : Fin 4194304) := fun k => by idx_eq2
  have e2 : ∀ k : Fin 5, idx_main_v175 (ridx_main_v176 (idx_main_v177 i) k)
      = ix2 (⟨flatPos i % 12, flatPos_mod_lt i⟩ : Fin 12) k := fun k => by idx_eq2
  rw [val_main_v177_apply, val_main_v176_apply]
  simp only [val_main_v174_apply, val_main_v175_apply, e1, e2, coef_eq]
  unfold G out12 outS
  exact Finset.sum_congr rfl fun k _ => mul_comm _ _

end Cert.Bilateral.RefStages

end
-- ==== Proof.lean ====
/-
  Kernel and reference compute the same [4194304, 3, 4] array on the extended reals.

  The kernel runs 256 grid points over blocks of 16384 points laid out one point per lane; for each point it halves
  the three coordinates, computes a grey level from the colour by a two-layer network, moves the four numbers onto
  grids of 8, 16, 16 and 16 nodes, interpolates a table row at each position as the sum over ALL nodes of the table
  entry times the hat weight max 0 (1 − |d − p|), multiplies the four rows and projects them by the last table. The
  reference does the same point by point with the textbook two-node interpolation: floor of the position, the two
  neighbouring table columns gathered, weighted by 1 − w and w. The one law that joins them is that the hat weights
  vanish away from the two neighbouring nodes and are 1 − w and w there (Proof/HatLaw.lean); it holds for any clipped
  position, which is always a real number in the grid's range, and for any table entries, so the precondition is
  never opened. Everything else is the same sums with factors commuted, a division by 2 against a product with 1/2,
  and the layouts: the kernel's transposes and its tiling by columns, the reference's reshapes.

  Modules: HatLaw (the law on numbers), InterpWords (the reference's integer words and the law on the two programs'
  float words), Spec (the result as one function of the arguments), KernelPieces / KernelBlock (the kernel body's
  stored block read at an entry), KernelArray / KernelRun (from blocks to the output array, the host lines around the
  region, the run), RefStages (the reference read stage by stage).
-/
import proofs.«121849_j48765058679256_2_alg».proof.Defs
import proofs.«121849_j48765058679256_2_alg».proof.Proof.Gen.Kernel
import proofs.«121849_j48765058679256_2_alg».proof.Proof.Gen.Kernel.Skeleton
import proofs.«121849_j48765058679256_2_alg».proof.Proof.Gen.Kernel.Launch
import proofs.«121849_j48765058679256_2_alg».proof.Proof.Gen.Kernel.Points
import proofs.«121849_j48765058679256_2_alg».proof.Proof.Gen.Kernel.Frame
import proofs.«121849_j48765058679256_2_alg».proof.Proof.Gen.KernelIdeal
import proofs.«121849_j48765058679256_2_alg».proof.Proof.Gen.KernelIdeal.Skeleton
import proofs.«121849_j48765058679256_2_alg».proof.Proof.Gen.KernelIdeal.Launch
import proofs.«121849_j48765058679256_2_alg».proof.Proof.Gen.KernelIdeal.Points
import proofs.«121849_j48765058679256_2_alg».proof.Proof.Gen.KernelIdeal.Frame
import proofs.«121849_j48765058679256_2_alg».proof.Proof.Gen.ReferenceIdeal
import proofs.«121849_j48765058679256_2_alg».proof.Proof.Gen.ReferenceIdeal.Run
import proofs.«121849_j48765058679256_2_alg».proof.Proof.Gen.ReferenceIdeal.Read
import proofs.«121849_j48765058679256_2_alg».proof.Proof.Gen.Pre_finite_inputs
import proofs.«121849_j48765058679256_2_alg».proof.Proof.KernelRun
import proofs.«121849_j48765058679256_2_alg».proof.Proof.RefStages
import Idealize.ShloMosaic.Adequacy
import Idealize.ShloMosaic.Init

noncomputable section

namespace Cert.Proof

open Idealize.ShloMosaic Idealize.SL.Sem

/-- The word-level kernel terminates and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification of their arguments in the result buffer; the arguments agree. -/
theorem algebraic : Cert.algebraic_KernelIdeal_ReferenceIdeal := by
  intro m ρ m' ρ' _ hagree
  refine ⟨_, Cert.Bilateral.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v177_eq, Cert.Bilateral.RefStages.result_eq]
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
